-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x3 : Shape := ⟨3, ![16, 3, 3]⟩
abbrev S16x3 : Shape := ⟨2, ![16, 3]⟩
abbrev S4096x3 : Shape := ⟨2, ![4096, 3]⟩
abbrev S_ : Shape := ⟨0, ![]⟩

class Facts : Prop where
  bcast_S_S16x3x3 : S_.BroadcastsInDim S16x3x3 (![] : Fin 0 → Fin S16x3x3.rank)
  reducesTo_S16x3x3_S_d0_1_2 : S16x3x3.ReducesTo [0, 1, 2] S_
  h_S_ : 0 < S_.numel
  bcast_S_S16x3 : S_.BroadcastsInDim S16x3 (![] : Fin 0 → Fin S16x3.rank)
  reducesTo_S16x3_S_d0_1 : S16x3.ReducesTo [0, 1] S_
  bcast_S_S4096x3 : S_.BroadcastsInDim S4096x3 (![] : Fin 0 → Fin S4096x3.rank)
  reducesTo_S4096x3_S_d0_1 : S4096x3.ReducesTo [0, 1] S_

variable [Facts]

def fn_part1 {F : FTy → Type} [FloatOps F] (main_arg4 : FVec F S4096x3 .f32) (main_v13 : IVec S_ 1) (main_v16 : IVec S16x3 1) : IVec S_ 1 :=
  let main_c_5 : IVec S_ 1 := constantI S_ 1 1#1
  let main_v17 : IVec S_ 1 := (fun x v => Host.reduce IntOp.andi x v reducesTo_S16x3_S_d0_1 h_S_) main_v16 main_c_5
  let main_v18 : IVec S_ 1 := andi main_v13 main_v17
  let main_v19 : FVec F S4096x3 .f32 := Host.absf main_arg4
  let main_cst_6 : FVec F S_ .f32 := constant S_ .f32 0x7F800000#32
  let main_v20 : FVec F S4096x3 .f32 := broadcastInDim S4096x3 ![] bcast_S_S4096x3 main_cst_6
  let main_v21 : IVec S4096x3 1 := cmpf .olt main_v19 main_v20
  let main_c_7 : IVec S_ 1 := constantI S_ 1 1#1
  let main_v22 : IVec S_ 1 := (fun x v => Host.reduce IntOp.andi x v reducesTo_S4096x3_S_d0_1 h_S_) main_v21 main_c_7
  let main_v23 : IVec S_ 1 := andi main_v18 main_v22
  main_v23

def fn {F : FTy → Type} [FloatOps F] (main_arg0 : FVec F S16x3x3 .f32) (main_arg1 : FVec F S16x3 .f32) (main_arg2 : FVec F S16x3x3 .f32) (main_arg3 : FVec F S16x3 .f32) (main_arg4 : FVec F S4096x3 .f32) : IVec S_ 1 :=
  let main_v0 : FVec F S16x3x3 .f32 := Host.absf main_arg0
  let main_cst : FVec F S_ .f32 := constant S_ .f32 0x7F800000#32
  let main_v1 : FVec F S16x3x3 .f32 := broadcastInDim S16x3x3 ![] bcast_S_S16x3x3 main_cst
  let main_v2 : IVec S16x3x3 1 := cmpf .olt main_v0 main_v1
  let main_c : IVec S_ 1 := constantI S_ 1 1#1
  let main_v3 : IVec S_ 1 := (fun x v => Host.reduce IntOp.andi x v reducesTo_S16x3x3_S_d0_1_2 h_S_) main_v2 main_c
  let main_v4 : FVec F S16x3 .f32 := Host.absf main_arg1
  let main_cst_0 : FVec F S_ .f32 := constant S_ .f32 0x7F800000#32
  let main_v5 : FVec F S16x3 .f32 := broadcastInDim S16x3 ![] bcast_S_S16x3 main_cst_0
  let main_v6 : IVec S16x3 1 := cmpf .olt main_v4 main_v5
  let main_c_1 : IVec S_ 1 := constantI S_ 1 1#1
  let main_v7 : IVec S_ 1 := (fun x v => Host.reduce IntOp.andi x v reducesTo_S16x3_S_d0_1 h_S_) main_v6 main_c_1
  let main_v8 : IVec S_ 1 := andi main_v3 main_v7
  let main_v9 : FVec F S16x3x3 .f32 := Host.absf main_arg2
  let main_cst_2 : FVec F S_ .f32 := constant S_ .f32 0x7F800000#32
  let main_v10 : FVec F S16x3x3 .f32 := broadcastInDim S16x3x3 ![] bcast_S_S16x3x3 main_cst_2
  let main_v11 : IVec S16x3x3 1 := cmpf .olt main_v9 main_v10
  let main_c_3 : IVec S_ 1 := constantI S_ 1 1#1
  let main_v12 : IVec S_ 1 := (fun x v => Host.reduce IntOp.andi x v reducesTo_S16x3x3_S_d0_1_2 h_S_) main_v11 main_c_3
  let main_v13 : IVec S_ 1 := andi main_v8 main_v12
  let main_v14 : FVec F S16x3 .f32 := Host.absf main_arg3
  let main_cst_4 : FVec F S_ .f32 := constant S_ .f32 0x7F800000#32
  let main_v15 : FVec F S16x3 .f32 := broadcastInDim S16x3 ![] bcast_S_S16x3 main_cst_4
  let main_v16 : IVec S16x3 1 := cmpf .olt main_v14 main_v15
  fn_part1 (F := F) main_arg4 main_v13 main_v16
-- ==== Kernel.lean ====
abbrev S16x3x3 : Shape := ⟨3, ![16, 3, 3]⟩
abbrev S16x3 : Shape := ⟨2, ![16, 3]⟩
abbrev S4096x3 : Shape := ⟨2, ![4096, 3]⟩
abbrev S16x3x1 : Shape := ⟨3, ![16, 3, 1]⟩
abbrev S16x1x3 : Shape := ⟨3, ![16, 1, 3]⟩
abbrev S3x4096 : Shape := ⟨2, ![3, 4096]⟩
abbrev S16x1x4096 : Shape := ⟨3, ![16, 1, 4096]⟩
abbrev S3x1024 : Shape := ⟨2, ![3, 1024]⟩
abbrev S2048x3 : Shape := ⟨2, ![2048, 3]⟩
abbrev S1x3x3 : Shape := ⟨3, ![1, 3, 3]⟩
abbrev S1x3x1 : Shape := ⟨3, ![1, 3, 1]⟩
abbrev S1x1x3 : Shape := ⟨3, ![1, 1, 3]⟩
abbrev S1x1x1024 : Shape := ⟨3, ![1, 1, 1024]⟩
abbrev S1x1024 : Shape := ⟨2, ![1, 1024]⟩
abbrev S3x3 : Shape := ⟨2, ![3, 3]⟩
abbrev S3x1 : Shape := ⟨2, ![3, 1]⟩
abbrev S1x3 : Shape := ⟨2, ![1, 3]⟩
abbrev S2048x1 : Shape := ⟨2, ![2048, 1]⟩
abbrev S2048x1024 : Shape := ⟨2, ![2048, 1024]⟩
abbrev S1024 : Shape := ⟨1, ![1024]⟩
abbrev S16x4096 : Shape := ⟨2, ![16, 4096]⟩
abbrev S_ : Shape := ⟨0, ![]⟩

abbrev nBuf : Space → Nat
  | .hbm => 14
  | .vmem => 15
  | .smem => 0
  | _ => 0

abbrev bufTy : (tb : Table) → Fin (tcTables nBuf tb) → BufTy
  | .hbm, ⟨0, _⟩ => ⟨S16x3x3, .f32⟩
  | .hbm, ⟨1, _⟩ => ⟨S16x3, .f32⟩
  | .hbm, ⟨2, _⟩ => ⟨S16x3x3, .f32⟩
  | .hbm, ⟨3, _⟩ => ⟨S16x3, .f32⟩
  | .hbm, ⟨4, _⟩ => ⟨S4096x3, .f32⟩
  | .hbm, ⟨5, _⟩ => ⟨S16x3x1, .f32⟩
  | .hbm, ⟨6, _⟩ => ⟨S16x1x3, .f32⟩
  | .hbm, ⟨7, _⟩ => ⟨S3x4096, .f32⟩
  | .hbm, ⟨8, _⟩ => ⟨S16x1x4096, .f32⟩
  | .hbm, ⟨9, _⟩ => ⟨S16x4096, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S3x1024, .f32⟩
  | .local _ .vmem, ⟨1, _⟩ => ⟨S3x1024, .f32⟩
  | .local _ .vmem, ⟨2, _⟩ => ⟨S2048x3, .f32⟩
  | .local _ .vmem, ⟨3, _⟩ => ⟨S2048x3, .f32⟩
  | .local _ .vmem, ⟨4, _⟩ => ⟨S1x3x3, .f32⟩
  | .local _ .vmem, ⟨5, _⟩ => ⟨S1x3x3, .f32⟩
  | .local _ .vmem, ⟨6, _⟩ => ⟨S1x3x1, .f32⟩
  | .local _ .vmem, ⟨7, _⟩ => ⟨S1x3x1, .f32⟩
  | .local _ .vmem, ⟨8, _⟩ => ⟨S1x3x3, .f32⟩
  | .local _ .vmem, ⟨9, _⟩ => ⟨S1x3x3, .f32⟩
  | .local _ .vmem, ⟨10, _⟩ => ⟨S1x1x3, .f32⟩
  | .local _ .vmem, ⟨11, _⟩ => ⟨S1x1x3, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | _, _ => ⟨S16x3x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 4, 2], ![false, false, false]⟩

def k0_cond2 (i : grid0.Coords) : BitVec 1 :=
  let arg2 : BitVec 32 := BitVec.ofNat 32 (i 2).val
  let c1_i32 : BitVec 32 := 1#32
  let v48 : BitVec 1 := Scalar.cmpi .eq arg2 c1_i32
  let v49 : BitVec 32 := Scalar.extui v48
  let c0_i32_22 : BitVec 32 := 0#32
  let v50 : BitVec 1 := Scalar.cmpi .ne v49 c0_i32_22
  v50

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x3x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x3x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x3x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  shapeCasts_S16x3_S16x3x1 : S16x3.ShapeCasts S16x3x1
  shapeCasts_S16x3_S16x1x3 : S16x3.ShapeCasts S16x1x3
  transposes_S4096x3_S3x4096_1_0 : S4096x3.Transposes [1, 0] S3x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x3x3_S1x3x3_0_0_0 : ∀ a, (![0, 0, 0] : Fin 3 → Nat) a + S1x3x3.size a ≤ S1x3x3.size a
  h_S1x3x3 : 0 < S1x3x3.numel
  shapeCasts_S1x3x3_S3x3 : S1x3x3.ShapeCasts S3x3
  inb_S3x1024_S3x1024_0_0 : ∀ a, (![0, 0] : Fin 2 → Nat) a + S3x1024.size a ≤ S3x1024.size a
  h_S3x1024 : 0 < S3x1024.numel
  shapeCasts_S3x1024_S3x1024 : S3x1024.ShapeCasts S3x1024
  inb_S1x3x1_S1x3x1_0_0_0 : ∀ a, (![0, 0, 0] : Fin 3 → Nat) a + S1x3x1.size a ≤ S1x3x1.size a
  h_S1x3x1 : 0 < S1x3x1.numel
  shapeCasts_S1x3x1_S3x1 : S1x3x1.ShapeCasts S3x1
  broadcasts_S3x1_S3x1024 : S3x1.Broadcasts S3x1024
  inb_S2048x3_S2048x3_0_0 : ∀ a, (![0, 0] : Fin 2 → Nat) a + S2048x3.size a ≤ S2048x3.size a
  h_S2048x3 : 0 < S2048x3.numel
  transposes_S3x3_p1_0_S3x3 : S3x3.Transposes [1, 0] S3x3
  inb_S1x1x3_S1x1x3_0_0_0 : ∀ a, (![0, 0, 0] : Fin 3 → Nat) a + S1x1x3.size a ≤ S1x1x3.size a
  h_S1x1x3 : 0 < S1x1x3.numel
  shapeCasts_S1x1x3_S1x3 : S1x1x3.ShapeCasts S1x3
  broadcasts_S1x3_S2048x3 : S1x3.Broadcasts S2048x3
  slices_S2048x3_o0_0_S2048x1 : S2048x3.Slices ![0, 0] S2048x1
  slices_S3x1024_o0_0_S1x1024 : S3x1024.Slices ![0, 0] S1x1024
  broadcasts_S2048x1_S2048x1024 : S2048x1.Broadcasts S2048x1024
  broadcasts_S1x1024_S2048x1024 : S1x1024.Broadcasts S2048x1024
  slices_S2048x3_o0_1_S2048x1 : S2048x3.Slices ![0, 1] S2048x1
  slices_S3x1024_o1_0_S1x1024 : S3x1024.Slices ![1, 0] S1x1024
  slices_S2048x3_o0_2_S2048x1 : S2048x3.Slices ![0, 2] S2048x1
  slices_S3x1024_o2_0_S1x1024 : S3x1024.Slices ![2, 0] S1x1024
  reduces_S2048x1024_S1024 : S2048x1024.Reduces [0] S1024
  shapeCasts_S1024_S1x1024 : S1024.ShapeCasts S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S16x1x4096_S16x4096 : S16x1x4096.ShapeCasts S16x4096
  reducesTo_S16x4096_S_d0_1 : S16x4096.ReducesTo [0, 1] S_
  h_S_ : 0 < S_.numel
  dot_S3x3_S3x1024_S3x1024_1_0_0_1_n_n_wf : DotDims.WF S3x3 S3x1024 S3x1024 [1] [0] [0] [1] [] []
  dot_S2048x3_S3x3_S2048x3_1_0_0_1_n_n_wf : DotDims.WF S2048x3 S3x3 S2048x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x1024.size a ≤ S3x4096.size a
  hwx0_0 : ∀ i : grid0.Coords, EltTy.bits .f32 = 32 ∨ (Rect.block (s := S3x4096) S3x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x3.size a ≤ S4096x3.size a
  hwx0_1 : ∀ i : grid0.Coords, EltTy.bits .f32 = 32 ∨ (Rect.block (s := S4096x3) S2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x3.size a ≤ S16x3x3.size a
  hwx0_2 : ∀ i : grid0.Coords, EltTy.bits .f32 = 32 ∨ (Rect.block (s := S16x3x3) S1x3x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x1.size a ≤ S16x3x1.size a
  hwx0_3 : ∀ i : grid0.Coords, EltTy.bits .f32 = 32 ∨ (Rect.block (s := S16x3x1) S1x3x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x3x3.size a ≤ S16x3x3.size a
  hwx0_4 : ∀ i : grid0.Coords, EltTy.bits .f32 = 32 ∨ (Rect.block (s := S16x3x3) S1x3x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x3.size a ≤ S16x1x3.size a
  hwx0_5 : ∀ i : grid0.Coords, EltTy.bits .f32 = 32 ∨ (Rect.block (s := S16x1x3) S1x1x3.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S16x1x4096.size a
  hwx0_6 : ∀ i : grid0.Coords, EltTy.bits .f32 = 32 ∨ (Rect.block (s := S16x1x4096) S1x1x1024.size (cc0_transform_6 i) (hinb0_6 i)).WholeWords (EltTy.packing .f32)

variable [Facts₀]

def dot_S3x3_S3x1024_S3x1024_1_0_0_1_n_n : DotDims S3x3 S3x1024 S3x1024 where
  lhsContracting := [1]
  rhsContracting := [0]
  lhsNonContracting := [0]
  rhsNonContracting := [1]
  lhsBatch := []
  rhsBatch := []
  wf := dot_S3x3_S3x1024_S3x1024_1_0_0_1_n_n_wf
def dot_S2048x3_S3x3_S2048x3_1_0_0_1_n_n : DotDims S2048x3 S3x3 S2048x3 where
  lhsContracting := [1]
  rhsContracting := [0]
  lhsNonContracting := [0]
  rhsNonContracting := [1]
  lhsBatch := []
  rhsBatch := []
  wf := dot_S2048x3_S3x3_S2048x3_1_0_0_1_n_n_wf

abbrev win0_0 : Pipeline.Window sig grid0 :=
  Pipeline.Window.ofSpec (Memref.whole main_v2) S3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x3x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x3x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x3x3.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1x3.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S16x3x3 : Shape := ⟨3, ![16, 3, 3]⟩
abbrev S16x3 : Shape := ⟨2, ![16, 3]⟩
abbrev S4096x3 : Shape := ⟨2, ![4096, 3]⟩
abbrev S16x3x4096 : Shape := ⟨3, ![16, 3, 4096]⟩
abbrev S16x4096x3 : Shape := ⟨3, ![16, 4096, 3]⟩
abbrev S16x1x3 : Shape := ⟨3, ![16, 1, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩

abbrev nBuf : Space → Nat
  | .hbm => 41
  | .vmem => 0
  | .smem => 0
  | _ => 0

abbrev bufTy : (tb : Table) → Fin (tcTables nBuf tb) → BufTy
  | .hbm, ⟨0, _⟩ => ⟨S16x3x3, .f32⟩
  | .hbm, ⟨1, _⟩ => ⟨S16x3, .f32⟩
  | .hbm, ⟨2, _⟩ => ⟨S16x3x3, .f32⟩
  | .hbm, ⟨3, _⟩ => ⟨S16x3, .f32⟩
  | .hbm, ⟨4, _⟩ => ⟨S4096x3, .f32⟩
  | .hbm, ⟨5, _⟩ => ⟨S16x3x4096, .f32⟩
  | .hbm, ⟨6, _⟩ => ⟨S16x4096x3, .f32⟩
  | .hbm, ⟨7, _⟩ => ⟨S16x1x3, .f32⟩
  | .hbm, ⟨8, _⟩ => ⟨S16x4096x3, .f32⟩
  | .hbm, ⟨9, _⟩ => ⟨S16x4096x3, .f32⟩
  | .hbm, ⟨10, _⟩ => ⟨S16x3x4096, .f32⟩
  | .hbm, ⟨11, _⟩ => ⟨S16x4096x3, .f32⟩
  | .hbm, ⟨12, _⟩ => ⟨S16x1x3, .f32⟩
  | .hbm, ⟨13, _⟩ => ⟨S16x4096x3, .f32⟩
  | .hbm, ⟨14, _⟩ => ⟨S16x4096x3, .f32⟩
  | .hbm, ⟨15, _⟩ => ⟨S16x4096x3, .f32⟩
  | .hbm, ⟨16, _⟩ => ⟨S_, .f32⟩
  | .hbm, ⟨17, _⟩ => ⟨S16x4096, .f32⟩
  | .hbm, ⟨18, _⟩ => ⟨S16x4096x3, .f32⟩
  | .hbm, ⟨19, _⟩ => ⟨S_, .f32⟩
  | .hbm, ⟨20, _⟩ => ⟨S16x4096, .f32⟩
  | .hbm, ⟨21, _⟩ => ⟨S16x4096x4096, .f32⟩
  | .hbm, ⟨22, _⟩ => ⟨S16x4096x1, .f32⟩
  | .hbm, ⟨23, _⟩ => ⟨S16x1x4096, .f32⟩
  | .hbm, ⟨24, _⟩ => ⟨S16x4096x4096, .f32⟩
  | .hbm, ⟨25, _⟩ => ⟨S16x4096x4096, .f32⟩
  | .hbm, ⟨26, _⟩ => ⟨S16x4096x4096, .f32⟩
  | .hbm, ⟨27, _⟩ => ⟨S_, .f32⟩
  | .hbm, ⟨28, _⟩ => ⟨S16x4096x4096, .f32⟩
  | .hbm, ⟨29, _⟩ => ⟨S16x4096x4096, .f32⟩
  | .hbm, ⟨30, _⟩ => ⟨S16x4096x4096, .f32⟩
  | .hbm, ⟨31, _⟩ => ⟨S_, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S_, .f32⟩
  | .hbm, ⟨36, _⟩ => ⟨S16x4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S16x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  transposes_S16x3x4096_S16x4096x3_0_2_1 : S16x3x4096.Transposes [0, 2, 1] S16x4096x3
  bcast_S16x3_S16x1x3_0_2 : S16x3.BroadcastsInDim S16x1x3 (![0, 2] : Fin 2 → Fin S16x1x3.rank)
  bcast_S16x1x3_S16x4096x3_0_1_2 : S16x1x3.BroadcastsInDim S16x4096x3 (![0, 1, 2] : Fin 3 → Fin S16x4096x3.rank)
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096_S_d0_1 : S16x4096.ReducesTo [0, 1] S_
  dot_S16x3x3_S4096x3_S16x3x4096_2_1_01_0_n_n_wf : DotDims.WF S16x3x3 S4096x3 S16x3x4096 [2] [1] [0, 1] [0] [] []
  dot_S16x4096x3_S16x4096x3_S16x4096x4096_2_2_1_1_0_0_wf : DotDims.WF S16x4096x3 S16x4096x3 S16x4096x4096 [2] [2] [1] [1] [0] [0]

variable [Facts₀]

def dot_S16x3x3_S4096x3_S16x3x4096_2_1_01_0_n_n : DotDims S16x3x3 S4096x3 S16x3x4096 where
  lhsContracting := [2]
  rhsContracting := [1]
  lhsNonContracting := [0, 1]
  rhsNonContracting := [0]
  lhsBatch := []
  rhsBatch := []
  wf := dot_S16x3x3_S4096x3_S16x3x4096_2_1_01_0_n_n_wf
def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.LibLeast.lean ====
/-
  The least of finitely many extended reals, and the reductions by `min` that compute it.

  `least f` is the fold of `min` from +∞ over a finite family; a number is below it exactly when it is below every member
  (`le_least`), so two iterated least values over the two coordinates of a block decomposition are the least value over
  the whole range (`least_blocks`). At the ideal instance, where `minimumf` is `min` on the extended reals and the f32
  word 0x7F800000 is +∞, a `vector.multi_reduction <minimumf>` over one axis and the host's `stablehlo.reduce` with a
  `minimum` body over one axis, both started from that word, are `least` over the removed axis's coordinates
  (`multiReduction_minimumf_least`, `hostReduce_minimumf_least`; the source index is `Shape.Reduces.lift`, whose
  coordinates compute at literal axes).
-/
import Idealize.ShloMosaic.PureOps.Ideal
import Idealize.ShloMosaic.PureOps.Ideal.Laws
import Idealize.ShloMosaic.PureOps.Reduce

noncomputable section

namespace Cert.Lib.Least

open Idealize.ShloMosaic

/-- The least value of a finite family of extended reals, starting from +∞ (the empty family's least value). -/
def least {K : Type} [Fintype K] (f : K → EReal) : EReal := (Finset.univ : Finset K).fold min ⊤ f

/-- The universal property: a bound below the least value is a bound below every member. -/
theorem le_least {K : Type} [Fintype K] (f : K → EReal) (c : EReal) : c ≤ least f ↔ ∀ k, c ≤ f k := by
  unfold least
  rw [Finset.le_fold_min]
  exact ⟨fun h k => h.2 k (Finset.mem_univ k), fun h => ⟨le_top, fun k _ => h k⟩⟩

/-- Two families with the same members have the same least value. -/
theorem least_congr {K : Type} [Fintype K] {f g : K → EReal} (h : ∀ k, f k = g k) : least f = least g :=
  congrArg least (funext h)

/-- The f32 word of +∞ is the top of the extended reals. -/
theorem inf_word : Ideal.ofBits .f32 0x7F800000#32 = (⊤ : EReal) := by
  simp [Ideal.ofBits, Ideal.ieee]

/-- Position `r` of block `t` lies in a range of `T` blocks of `R` positions. -/
theorem block_lt {T R : ℕ} (t : Fin T) (r : Fin R) : t.val * R + r.val < T * R :=
  calc t.val * R + r.val < t.val * R + R := Nat.add_lt_add_left r.isLt _
    _ = (t.val + 1) * R := by rw [Nat.add_mul, Nat.one_mul]
    _ ≤ T * R := Nat.mul_le_mul_right R t.isLt

/-- A range of `T` blocks of `R` positions that has a position has blocks that are not empty, -/
theorem pos_of_lt_mul {T R v : ℕ} (h : v < T * R) : 0 < R := by
  rcases Nat.eq_zero_or_pos R with h0 | h0
  · subst h0; exact absurd h (Nat.not_lt_zero _)
  · exact h0

/-- and the block of a position is one of the `T` blocks. -/
theorem div_lt_of_lt_mul {T R v : ℕ} (h : v < T * R) : v / R < T :=
  Nat.div_lt_of_lt_mul (Nat.mul_comm T R ▸ h)

/-- The least value over a range cut into `T` blocks of `R` positions is the least, over the blocks, of each block's
    least value. -/
theorem least_blocks {T R : ℕ} (g : Fin (T * R) → EReal) :
    least (fun t : Fin T => least fun r : Fin R => g ⟨t.val * R + r.val, block_lt t r⟩) = least g := by
  refine eq_of_forall_le_iff fun c => ?_
  simp only [le_least]
  constructor
  · intro h m
    have hR : 0 < R := pos_of_lt_mul m.isLt
    have hq : m.val / R < T := div_lt_of_lt_mul m.isLt
    have e : m = ⟨(⟨m.val / R, hq⟩ : Fin T).val * R + (⟨m.val % R, Nat.mod_lt _ hR⟩ : Fin R).val, block_lt _ _⟩ :=
      Fin.ext (Nat.div_add_mod' m.val R).symm
    rw [e]; exact h _ _
  · intro h t r; exact h _

/-- At the ideal instance an f32 `vector.multi_reduction <minimumf>` over ONE axis from the word of +∞ is, at a reduced
    index, the least of the source over that axis's coordinates. -/
theorem multiReduction_minimumf_least {s t : Shape} {a : Fin s.rank} (src : FVec Ideal s .f32) (h : s.Reduces [a] t)
    (hφ : FKind.Formats .f32) (hacc : (0x7F800000#32 : BitVec 32) = FKind.minimumf.neutral .f32 hφ) (j : t.Idx) :
    multiReduction (F := Ideal) .minimumf [a] t src 0x7F800000#32 h hφ hacc j
      = least fun k : Fin (s.size a) => src (h.lift j k) := by
  rw [multiReduction_minimumf_eq_fold]
  refine (h.fold_filter_drop_single _ _ src j).trans ?_
  show (Finset.univ : Finset (Fin (s.size a))).fold min (Ideal.ofBits .f32 0x7F800000#32) (src ∘ h.lift j) = _
  rw [inf_word]
  rfl

/-- At the ideal instance the host's one-operand `stablehlo.reduce` with a `minimum` body over ONE axis, from the f32
    constant +∞, is, at a reduced index, the least of the operand over that axis's coordinates. -/
theorem hostReduce_minimumf_least {s t u : Shape} {a : Fin s.rank} (x : s.Idx → EReal) (h' : s.ReducesTo [a] t)
    (h : s.Reduces [a] t) (hu : 0 < u.numel) (j : t.Idx) :
    Host.reduce (FloatOps.minimumf (F := Ideal) (φ := .f32)) x (constant (F := Ideal) u .f32 0x7F800000#32) h' hu j
      = least fun k : Fin (s.size a) => x (h.lift j k) := by
  rw [Host.reduce_eq_fold_single (FloatOps.minimumf (F := Ideal) (φ := .f32)) x _ h' h hu j]
  show (Finset.univ : Finset (Fin (s.size a))).fold min (Ideal.ofBits .f32 0x7F800000#32) _ = Finset.univ.fold min ⊤ _
  rw [inf_word]
  rfl

end Cert.Lib.Least

end
-- ==== Proof.Spec.lean ====
/-
  The closest-point distance between two rigidly moved copies of one point cloud, written once per side.

  A cloud of 4096 points in space (`mp`, one row per point) is moved, for each of 16 batches `b`, by a predicted
  motion (`Rp b`, `tp b`) and by a true motion (`Rg b`, `tg b`): coordinate `j` of the moved point `p` is
  `∑ k, R b j k · mp p k + t b j` (`moved`). For a predicted point `m` the quantity of interest is its distance to the
  nearest truly-moved point.

  * One side (`kerDist`) takes the squared distance as the sum of the three squared coordinate differences
    (`sqDist`), takes the least of these over the first 2048 true points and then over the last 2048, each least value
    folded into a running value that starts at +∞, and only then clips at zero and takes the square root.
  * The other side (`refDist`) expands the square, `‖p‖² + ‖g‖² − 2·⟨p, g⟩`, clips at zero and takes the square root
    for every pair, and takes the least over all 4096 true points.

  Both sides then average the 16 · 4096 distances the same way (`mean`: the sum from zero, divided by 65536).
-/
import Idealize.ShloMosaic.PureOps.Ideal
import Idealize.ShloMosaic.Lib.ValueIdx
import proofs.«170356_j43447889167182_2_alg».proof.Proof.LibLeast

noncomputable section

namespace Cert.Spec

open Idealize.ShloMosaic Idealize.ShloMosaic.ValueIdx Cert.Lib.Least

/-- Coordinate `j` of cloud point `p` moved by batch `b`'s matrix `R` and shift `t`. -/
def moved (R : (⟨3, ![16, 3, 3]⟩ : Shape).Idx → EReal) (t : (⟨2, ![16, 3]⟩ : Shape).Idx → EReal)
    (mp : (⟨2, ![4096, 3]⟩ : Shape).Idx → EReal) (b : Fin 16) (p : Fin 4096) (j : Fin 3) : EReal :=
  (∑ k : Fin 3, R (ix3 b j k) * mp (ix2 p k)) + t (ix2 b j)

/-- The squared distance of two points of space as the sum of the three squared coordinate differences, added left to
    right. -/
def sqDist (g p : Fin 3 → EReal) : EReal :=
  ((g 0 - p 0) * (g 0 - p 0) + (g 1 - p 1) * (g 1 - p 1)) + (g 2 - p 2) * (g 2 - p 2)

/-- The least squared distance from the predicted point `m` to the true points of tile `n` (2048 consecutive points). -/
def tileMin (Rp : (⟨3, ![16, 3, 3]⟩ : Shape).Idx → EReal) (tp : (⟨2, ![16, 3]⟩ : Shape).Idx → EReal)
    (Rg : (⟨3, ![16, 3, 3]⟩ : Shape).Idx → EReal) (tg : (⟨2, ![16, 3]⟩ : Shape).Idx → EReal)
    (mp : (⟨2, ![4096, 3]⟩ : Shape).Idx → EReal) (b : Fin 16) (m : Fin 4096) (n : Fin 2) : EReal :=
  least fun r : Fin 2048 =>
    sqDist (moved Rg tg mp b ⟨n.val * 2048 + r.val, by have := n.isLt; have := r.isLt; omega⟩) (moved Rp tp mp b m)

/-- The tiled side: the running least value over the two tiles from +∞, then clipped at zero, then its square root. -/
def kerDist (Rp : (⟨3, ![16, 3, 3]⟩ : Shape).Idx → EReal) (tp : (⟨2, ![16, 3]⟩ : Shape).Idx → EReal)
    (Rg : (⟨3, ![16, 3, 3]⟩ : Shape).Idx → EReal) (tg : (⟨2, ![16, 3]⟩ : Shape).Idx → EReal)
    (mp : (⟨2, ![4096, 3]⟩ : Shape).Idx → EReal) (b : Fin 16) (m : Fin 4096) : EReal :=
  Ideal.sqrt (max (min (min ⊤ (tileMin Rp tp Rg tg mp b m 0)) (tileMin Rp tp Rg tg mp b m 1)) 0)

/-- The f32 word of the factor in front of the inner product. -/
def twoW : EReal := Ideal.ofBits .f32 0x40000000#32

/-- The expanded side: for every true point `‖p‖² + ‖g‖² − 2·⟨p, g⟩` (each sum started from zero), clipped at zero, its
    square root; then the least over all true points. -/
def refDist (Rp : (⟨3, ![16, 3, 3]⟩ : Shape).Idx → EReal) (tp : (⟨2, ![16, 3]⟩ : Shape).Idx → EReal)
    (Rg : (⟨3, ![16, 3, 3]⟩ : Shape).Idx → EReal) (tg : (⟨2, ![16, 3]⟩ : Shape).Idx → EReal)
    (mp : (⟨2, ![4096, 3]⟩ : Shape).Idx → EReal) (b : Fin 16) (m : Fin 4096) : EReal :=
  least fun n : Fin 4096 =>
    Ideal.sqrt (max
      (((0 + ∑ j : Fin 3, moved Rp tp mp b m j * moved Rp tp mp b m j)
          + (0 + ∑ j : Fin 3, moved Rg tg mp b n j * moved Rg tg mp b n j))
        - twoW * ∑ j : Fin 3, moved Rp tp mp b m j * moved Rg tg mp b n j) 0)

/-- The average both sides end with: the sum of all 16 · 4096 entries from the zero word, divided by the word of 65536. -/
def mean (h : (⟨2, ![16, 4096]⟩ : Shape).ReducesTo [0, 1] ⟨0, ![]⟩) (hu : 0 < (⟨0, ![]⟩ : Shape).numel)
    (Y : FVec Ideal ⟨2, ![16, 4096]⟩ .f32) : FVec Ideal ⟨0, ![]⟩ .f32 :=
  Host.divf (F := Ideal) (Host.reduceAdd (F := Ideal) Y (constant (F := Ideal) ⟨0, ![]⟩ .f32 0x00000000#32) h hu)
    (constant (F := Ideal) ⟨0, ![]⟩ .f32 0x47800000#32)

end Cert.Spec

end
-- ==== Proof.LibUnitAxis3.lean ====
/-
  Rank-3 arrays with a unit axis, read at an index given by its coordinates: a rank-2 array `[a, b]` cast to `[a, b, 1]` or to
  `[a, 1, b]` (a keepdims column or row: the row-major position is kept), and an `[a, b, 1]` or `[a, 1, c]` array broadcast
  to `[a, b, c]` (the one entry of a row, or the one row of a slab, repeated). For any element type and any extents.
-/
import Idealize.ShloMosaic.Lib.Pipeline.Value
import Idealize.ShloMosaic.Lib.ValueIdx

noncomputable section

namespace Cert.Lib.UnitAxis3

open Idealize.ShloMosaic Idealize.ShloMosaic.ValueIdx

section Layout
variable {α : Type}

/-- An `[a, b]` array cast to `[a, b, 1]` reads, at `(i, j, u)`, the operand at `(i, j)`: the row-major position is kept. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, k)`, the operand's one entry of row `(i, j)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand's one row of slab `i` at `k`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Layout

end Cert.Lib.UnitAxis3

end
-- ==== Proof.Blocks.lean ====
/-
  Where each block of the launch sits in its array.

  The grid has 16 · 4 · 2 points; point `t` has batch `t / 8`, predicted-point tile `t / 2 % 4` (1024 points) and
  true-point tile `t % 2` (2048 points). The transposed cloud is read by tile of predicted points, the cloud by tile of
  true points, the two rotations and the two shifts by batch, and the output row by batch and predicted tile. The
  arrays the launch reads that the host prepared are the two shifts with a unit axis inserted and the cloud transposed.
-/
import proofs.«170356_j43447889167182_2_alg».proof.Proof.Gen.KernelIdeal.Frame
import proofs.«170356_j43447889167182_2_alg».proof.Proof.LibUnitAxis3
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The block index of every window at every grid point, from the point's position in the grid. -/
theorem idx_facts : ∀ t : Fin cfg0.N,
    win0_0.index t (0 : Fin 2) = 0 ∧ win0_0.index t (1 : Fin 2) = t.val / 2 % 4
    ∧ win0_1.index t (0 : Fin 2) = t.val % 2 ∧ win0_1.index t (1 : Fin 2) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = 0
    ∧ win0_4.index t (0 : Fin 3) = t.val / 8 ∧ win0_4.index t (1 : Fin 3) = 0 ∧ win0_4.index t (2 : Fin 3) = 0
    ∧ win0_5.index t (0 : Fin 3) = t.val / 8 ∧ win0_5.index t (1 : Fin 3) = 0 ∧ win0_5.index t (2 : Fin 3) = 0
    ∧ win0_6.index t (0 : Fin 3) = t.val / 8 ∧ win0_6.index t (1 : Fin 3) = 0 ∧ win0_6.index t (2 : Fin 3) = t.val / 2 % 4 :=
  (by decide +kernel : ∀ t : Fin grid0.N, _)

theorem N128 : cfg0.N = 128 := N_0

/-! ## The arrays the host prepared -/

/-- The predicted shift with a trailing unit axis. -/
theorem V_v0 (c : Dev nD) : (V m c main_v0 : S16x3x1.Idx → Elt F .f32)
    = shapeCast S16x3x1 (m ((c : Thread nD τ).loc main_arg1)) shapeCasts_S16x3_S16x3x1 := by
  show StableHlo.after hostOps0 (fun b => m (c, b)) (Proc.devRef .tc main_v0) = _
  after_results
  rfl

/-- The true shift with a middle unit axis. -/
theorem V_v1 (c : Dev nD) : (V m c main_v1 : S16x1x3.Idx → Elt F .f32)
    = shapeCast S16x1x3 (m ((c : Thread nD τ).loc main_arg3)) shapeCasts_S16x3_S16x1x3 := by
  show StableHlo.after hostOps0 (fun b => m (c, b)) (Proc.devRef .tc main_v1) = _
  after_results
  rfl

/-- The cloud transposed: one row per coordinate. -/
theorem V_v2 (c : Dev nD) : (V m c main_v2 : S3x4096.Idx → Elt F .f32)
    = transpose S3x4096 [1, 0] (m ((c : Thread nD τ).loc main_arg4)) transposes_S4096x3_S3x4096_1_0 := by
  show StableHlo.after hostOps0 (fun b => m (c, b)) (Proc.devRef .tc main_v2) = _
  after_results

/-! ## The blocks, read at coordinates -/

/-- Row `k`, column `q` of the transposed cloud's block at `t`: coordinate `k` of predicted point `(t/2 % 4)·1024 + q`. -/
theorem blk0 (c : Dev nD) (t : Fin cfg0.N) (k : Fin 3) (q : Fin 1024) :
    (iblk m c 0 t : Vec F S3x1024 .f32) (ix2 k q)
      = m ((c : Thread nD τ).loc main_arg4) (ix2 ⟨t.val / 2 % 4 * 1024 + q.val, by have := q.isLt; omega⟩ k) := by
  obtain ⟨e0, e1, -⟩ := idx_facts t
  unfold iblk
  rw [View.read_apply]
  show V m c main_v2 _ = _
  rw [V_v2]
  refine transpose_apply [1, 0] _ transposes_S4096x3_S3x4096_1_0 _ _ fun a => ?_
  match a with
  | ⟨0, _⟩ => show k.val = win0_0.index t (0 : Fin 2) * 3 + 1 * k.val; rw [e0]; omega
  | ⟨1, _⟩ => show t.val / 2 % 4 * 1024 + q.val = win0_0.index t (1 : Fin 2) * 1024 + 1 * q.val; rw [e1]; omega

/-- Row `r`, column `k` of the cloud's block at `t`: coordinate `k` of true point `(t % 2)·2048 + r`. -/
theorem blk1 (c : Dev nD) (t : Fin cfg0.N) (r : Fin 2048) (k : Fin 3) :
    (iblk m c 1 t : Vec F S2048x3 .f32) (ix2 r k)
      = m ((c : Thread nD τ).loc main_arg4) (ix2 ⟨t.val % 2 * 2048 + r.val, by have := r.isLt; omega⟩ k) := by
  obtain ⟨-, -, e0, e1, -⟩ := idx_facts t
  unfold iblk
  rw [View.read_apply]
  show V m c main_arg4 _ = _
  rw [V_main_arg4]
  refine congrArg (m ((c : Thread nD τ).loc main_arg4)) (funext fun a => Fin.ext ?_)
  match a with
  | ⟨0, _⟩ => show win0_1.index t (0 : Fin 2) * 2048 + 1 * r.val = t.val % 2 * 2048 + r.val; rw [e0]; omega
  | ⟨1, _⟩ => show win0_1.index t (1 : Fin 2) * 3 + 1 * k.val = k.val; rw [e1]; omega

/-- Entry `(j, k)` of the predicted rotation's block at `t`: batch `t / 8`'s entry. -/
theorem blk2 (c : Dev nD) (t : Fin cfg0.N) (j k : Fin 3) :
    (iblk m c 2 t : Vec F S1x3x3 .f32) (ix3 0 j k)
      = m ((c : Thread nD τ).loc main_arg0) (ix3 ⟨t.val / 8, by have := lt_of_lt_of_eq t.isLt N128; omega⟩ j k) := by
  obtain ⟨-, -, -, -, e0, e1, e2, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_2.index t (0 : Fin 3) * 1 + 1 * 0 = t.val / 8; rw [e0]; omega
  | ⟨1, _⟩ => show win0_2.index t (1 : Fin 3) * 3 + 1 * j.val = j.val; rw [e1]; omega
  | ⟨2, _⟩ => show win0_2.index t (2 : Fin 3) * 3 + 1 * k.val = k.val; rw [e2]; omega

/-- Entry `(j, k)` of the true rotation's block at `t`: batch `t / 8`'s entry. -/
theorem blk4 (c : Dev nD) (t : Fin cfg0.N) (j k : Fin 3) :
    (iblk m c 4 t : Vec F S1x3x3 .f32) (ix3 0 j k)
      = m ((c : Thread nD τ).loc main_arg2) (ix3 ⟨t.val / 8, by have := lt_of_lt_of_eq t.isLt N128; omega⟩ j k) := by
  obtain ⟨-, -, -, -, -, -, -, -, -, -, e0, e1, e2, -⟩ := idx_facts t
  unfold iblk
  rw [View.read_apply]
  show V m c main_arg2 _ = _
  rw [V_main_arg2]
  refine congrArg (m ((c : Thread nD τ).loc main_arg2)) (funext fun a => Fin.ext ?_)
  match a with
  | ⟨0, _⟩ => show win0_4.index t (0 : Fin 3) * 1 + 1 * 0 = t.val / 8; rw [e0]; omega
  | ⟨1, _⟩ => show win0_4.index t (1 : Fin 3) * 3 + 1 * j.val = j.val; rw [e1]; omega
  | ⟨2, _⟩ => show win0_4.index t (2 : Fin 3) * 3 + 1 * k.val = k.val; rw [e2]; omega

/-- Entry `j` of the predicted shift's column block at `t`: batch `t / 8`'s entry. -/
theorem blk3 (c : Dev nD) (t : Fin cfg0.N) (j : Fin 3) :
    (iblk m c 3 t : Vec F S1x3x1 .f32) (ix3 0 j 0)
      = m ((c : Thread nD τ).loc main_arg1) (ix2 ⟨t.val / 8, by have := lt_of_lt_of_eq t.isLt N128; omega⟩ j) := by
  obtain ⟨-, -, -, -, -, -, -, e0, e1, e2, -⟩ := idx_facts t
  unfold iblk
  rw [View.read_apply]
  show V m c main_v0 _ = _
  rw [V_v0]
  have e : ((cfg0.win 3).blk t).view.emb (ix3 0 j 0)
      = ix3 (⟨t.val / 8, by have := lt_of_lt_of_eq t.isLt N128; omega⟩ : Fin 16) j (0 : Fin 1) := funext fun a => Fin.ext (by
    match a with
    | ⟨0, _⟩ => show win0_3.index t (0 : Fin 3) * 1 + 1 * 0 = t.val / 8; rw [e0]; omega
    | ⟨1, _⟩ => show win0_3.index t (1 : Fin 3) * 3 + 1 * j.val = j.val; rw [e1]; omega
    | ⟨2, _⟩ => show win0_3.index t (2 : Fin 3) * 1 + 1 * 0 = 0; rw [e2])
  rw [e]
  exact Cert.Lib.UnitAxis3.shapeCast_ab_ab1_apply _ _ _ _ _

/-- Entry `j` of the true shift's row block at `t`: batch `t / 8`'s entry. -/
theorem blk5 (c : Dev nD) (t : Fin cfg0.N) (j : Fin 3) :
    (iblk m c 5 t : Vec F S1x1x3 .f32) (ix3 0 0 j)
      = m ((c : Thread nD τ).loc main_arg3) (ix2 ⟨t.val / 8, by have := lt_of_lt_of_eq t.isLt N128; omega⟩ j) := by
  obtain ⟨-, -, -, -, -, -, -, -, -, -, -, -, -, e0, e1, e2, -⟩ := idx_facts t
  unfold iblk
  rw [View.read_apply]
  show V m c main_v1 _ = _
  rw [V_v1]
  have e : ((cfg0.win 5).blk t).view.emb (ix3 0 0 j)
      = ix3 (⟨t.val / 8, by have := lt_of_lt_of_eq t.isLt N128; omega⟩ : Fin 16) (0 : Fin 1) j := funext fun a => Fin.ext (by
    match a with
    | ⟨0, _⟩ => show win0_5.index t (0 : Fin 3) * 1 + 1 * 0 = t.val / 8; rw [e0]; omega
    | ⟨1, _⟩ => show win0_5.index t (1 : Fin 3) * 1 + 1 * 0 = 0; rw [e1]
    | ⟨2, _⟩ => show win0_5.index t (2 : Fin 3) * 3 + 1 * j.val = j.val; rw [e2]; omega)
  rw [e]
  exact Cert.Lib.UnitAxis3.shapeCast_ab_a1b_apply _ _ _ _ _

end Cert.KernelIdeal.Blocks

end
-- ==== Proof.Found.lean ====
/-
  What one run of the kernel body leaves behind, as values.

  The body keeps a running row of 1024 least squared distances in a scratch buffer. At a point whose last grid
  coordinate is 0 it first fills the row with +∞ and then folds the tile's least values into it, so the row it leaves
  is the fold applied to the +∞ row; at a point whose last coordinate is 1 it folds the tile's least values into the
  row the previous point left, and stores the clipped square roots of the result into the output block. Each is one
  pure function of the six input blocks (and, in the second case, of the row found in the scratch).
-/
import proofs.«170356_j43447889167182_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Found

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The running row after folding one tile into the row `acc`: the six input blocks are the predicted rotation (`x2`),
    the transposed cloud tile (`x0`), the predicted shift (`x3`), the cloud tile (`x1`), the true rotation (`x4`) and the
    true shift (`x5`). -/
def fold (x0 : Vec F S3x1024 .f32) (x1 : Vec F S2048x3 .f32) (x2 : Vec F S1x3x3 .f32) (x3 : Vec F S1x3x1 .f32) (x4 : Vec F S1x3x3 .f32) (x5 : Vec F S1x1x3 .f32) (acc : Vec F S1x1024 .f32) : Vec F S1x1024 .f32 :=
  k0_pay1 (k0_pay6 x2 x0 x3 x1 x4 x5) (k0_pay7 x1 x4 x5) (k0_pay8 x2 x0 x3) acc

/-- First case (last grid coordinate 0): the scratch row ends as the tile folded into the +∞ row. The body's own
    read-back of the +∞ row it has just stored is a covered load of that store. -/
theorem scratch_A (c : Dev nD) (i : grid0.Coords) (arg3 : Memref sig .tc .vmem S3x1024 .f32) (harg3 : arg3.IsWhole) (arg4 : Memref sig .tc .vmem S2048x3 .f32) (harg4 : arg4.IsWhole) (arg5 : Memref sig .tc .vmem S1x3x3 .f32) (harg5 : arg5.IsWhole) (arg6 : Memref sig .tc .vmem S1x3x1 .f32) (harg6 : arg6.IsWhole) (arg7 : Memref sig .tc .vmem S1x3x3 .f32) (harg7 : arg7.IsWhole) (arg8 : Memref sig .tc .vmem S1x1x3 .f32) (harg8 : arg8.IsWhole) (arg9 : Memref sig .tc .vmem S1x1x1024 .f32) (harg9 : arg9.IsWhole) (arg10 : Memref sig .tc .vmem S1x1024 .f32) (harg10 : arg10.IsWhole) (hc0 : cond0_0 i) (hc1 : ¬cond0_1 i) (x0 : Vec F S3x1024 .f32) (x1 : Vec F S2048x3 .f32) (x2 : Vec F S1x3x3 .f32) (x3 : Vec F S1x3x1 .f32) (x4 : Vec F S1x3x3 .f32) (x5 : Vec F S1x1x3 .f32) :
    sout0_A_0 c i arg3 harg3 arg4 harg4 arg5 harg5 arg6 harg6 arg7 harg7 arg8 harg8 arg9 harg9 arg10 harg10 hc0 hc1 x0 x1 x2 x3 x4 x5 = fold x0 x1 x2 x3 x4 x5 (k0_pay3 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1x1024) hz2, View.readCov_unit_zero (S := S1x1024) _ hz2]
  unfold fold
  simp only [View.readAt_eq_ld, harg3.read_unread, harg4.read_unread, harg5.read_unread, harg6.read_unread, harg7.read_unread, harg8.read_unread, harg10.read_unread, View.ld_unit_zero (S := S3x1024) hz2, View.ld_unit_zero (S := S2048x3) hz2, View.ld_unit_zero (S := S1x1024) hz2, View.ld_unit_zero (S := S1x3x3) hz3, View.ld_unit_zero (S := S1x3x1) hz3, View.ld_unit_zero (S := S1x1x3) hz3]

/-- Second case (last grid coordinate 1): the scratch row ends as the tile folded into the row `xs0` it found. -/
theorem scratch_B (c : Dev nD) (i : grid0.Coords) (arg3 : Memref sig .tc .vmem S3x1024 .f32) (harg3 : arg3.IsWhole) (arg4 : Memref sig .tc .vmem S2048x3 .f32) (harg4 : arg4.IsWhole) (arg5 : Memref sig .tc .vmem S1x3x3 .f32) (harg5 : arg5.IsWhole) (arg6 : Memref sig .tc .vmem S1x3x1 .f32) (harg6 : arg6.IsWhole) (arg7 : Memref sig .tc .vmem S1x3x3 .f32) (harg7 : arg7.IsWhole) (arg8 : Memref sig .tc .vmem S1x1x3 .f32) (harg8 : arg8.IsWhole) (arg9 : Memref sig .tc .vmem S1x1x1024 .f32) (harg9 : arg9.IsWhole) (arg10 : Memref sig .tc .vmem S1x1024 .f32) (harg10 : arg10.IsWhole) (hc0 : ¬cond0_0 i) (hc1 : cond0_1 i) (x0 : Vec F S3x1024 .f32) (x1 : Vec F S2048x3 .f32) (x2 : Vec F S1x3x3 .f32) (x3 : Vec F S1x3x1 .f32) (x4 : Vec F S1x3x3 .f32) (x5 : Vec F S1x1x3 .f32) (xs0 : Vec F S1x1024 .f32) :
    sout0_B_0 c i arg3 harg3 arg4 harg4 arg5 harg5 arg6 harg6 arg7 harg7 arg8 harg8 arg9 harg9 arg10 harg10 hc0 hc1 x0 x1 x2 x3 x4 x5 xs0 = fold x0 x1 x2 x3 x4 x5 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_unit_zero hz2]
  unfold fold
  simp only [View.readAt_eq_ld, harg3.read_unread, harg4.read_unread, harg5.read_unread, harg6.read_unread, harg7.read_unread, harg8.read_unread, harg10.read_unread, View.ld_unit_zero (S := S3x1024) hz2, View.ld_unit_zero (S := S2048x3) hz2, View.ld_unit_zero (S := S1x1024) hz2, View.ld_unit_zero (S := S1x3x3) hz3, View.ld_unit_zero (S := S1x3x1) hz3, View.ld_unit_zero (S := S1x1x3) hz3]

/-- Second case: the output block ends as the clipped square roots of that folded row. -/
theorem out_B (c : Dev nD) (i : grid0.Coords) (arg3 : Memref sig .tc .vmem S3x1024 .f32) (harg3 : arg3.IsWhole) (arg4 : Memref sig .tc .vmem S2048x3 .f32) (harg4 : arg4.IsWhole) (arg5 : Memref sig .tc .vmem S1x3x3 .f32) (harg5 : arg5.IsWhole) (arg6 : Memref sig .tc .vmem S1x3x1 .f32) (harg6 : arg6.IsWhole) (arg7 : Memref sig .tc .vmem S1x3x3 .f32) (harg7 : arg7.IsWhole) (arg8 : Memref sig .tc .vmem S1x1x3 .f32) (harg8 : arg8.IsWhole) (arg9 : Memref sig .tc .vmem S1x1x1024 .f32) (harg9 : arg9.IsWhole) (arg10 : Memref sig .tc .vmem S1x1024 .f32) (harg10 : arg10.IsWhole) (hc0 : ¬cond0_0 i) (hc1 : cond0_1 i) (x0 : Vec F S3x1024 .f32) (x1 : Vec F S2048x3 .f32) (x2 : Vec F S1x3x3 .f32) (x3 : Vec F S1x3x1 .f32) (x4 : Vec F S1x3x3 .f32) (x5 : Vec F S1x1x3 .f32) (xs0 : Vec F S1x1024 .f32) :
    out0_B_6 c i arg3 harg3 arg4 harg4 arg5 harg5 arg6 harg6 arg7 harg7 arg8 harg8 arg9 harg9 arg10 harg10 hc0 hc1 x0 x1 x2 x3 x4 x5 xs0 = k0_pay2 (fold x0 x1 x2 x3 x4 x5 xs0) := by
  unfold out0_B_6
  rw [View.read_writes_eq_canon _ _ _ (cover0_B_6 c i arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_unit_zero hz3, View.readCov_unit_zero (S := S1x1024) _ hz2]
  unfold fold
  simp only [View.readAt_eq_ld, harg3.read_unread, harg4.read_unread, harg5.read_unread, harg6.read_unread, harg7.read_unread, harg8.read_unread, harg10.read_unread, View.ld_unit_zero (S := S3x1024) hz2, View.ld_unit_zero (S := S2048x3) hz2, View.ld_unit_zero (S := S1x1024) hz2, View.ld_unit_zero (S := S1x3x3) hz3, View.ld_unit_zero (S := S1x3x1) hz3, View.ld_unit_zero (S := S1x1x3) hz3]

end Cert.KernelIdeal.Found

end
-- ==== Proof.Accum.lean ====
/-
  What the launch's scratch row and output block hold after each grid point.

  The last grid axis has two points. After a point whose last coordinate is 0 the scratch row is that point's tile
  folded into the +∞ row; the next point (last coordinate 1, same batch and same tile of predicted points) folds its
  own tile into that row and stores the clipped square roots into the output block. So after every odd point the output
  block is a function of the input blocks of that point and of the point before it, and nothing older.
-/
import proofs.«170356_j43447889167182_2_alg».proof.Proof.Found

noncomputable section

open Idealize.ShloMosaic Idealize.ShloMosaic.TcCoe Idealize.SL.Sem

namespace Cert.KernelIdeal.Accum

open Cert.KernelIdeal Cert.KernelIdeal.Gen

variable {F : FTy → Type} [FloatOps F]
variable (m : (ℓ : Loc nD τ sig) → Buf (Elt F) ℓ)

/-- The point before `t`. -/
abbrev pred (t : Fin cfg0.N) : Fin cfg0.N := ⟨t.val - 1, Nat.lt_of_le_of_lt (Nat.sub_le _ _) t.isLt⟩

/-- After an even point the scratch row is that point's tile folded into the +∞ row. -/
theorem row_even (c : Dev nD) (t : Fin cfg0.N) (h0 : t.val % 2 = 0) :
    (outsAt0 m c t.val t.isLt).2 = Found.fold (F := F) (iblk m c 0 t) (iblk m c 1 t) (iblk m c 2 t) (iblk m c 3 t) (iblk m c 4 t) (iblk m c 5 t) (k0_pay3 (F := F)) := by
  have h1 : ¬t.val % 2 = 1 := by omega
  rw [outsAt0_A m c t h0 h1, Found.scratch_A]

/-- After an odd point the output block is the clipped square roots of that point's tile folded into the row the
    point before left, which was its own tile folded into the +∞ row. -/
theorem out_odd (c : Dev nD) (t : Fin cfg0.N) (h1 : t.val % 2 = 1) :
    (outsAt0 m c t.val t.isLt).1
      = k0_pay2 (F := F) (Found.fold (F := F) (iblk m c 0 t) (iblk m c 1 t) (iblk m c 2 t) (iblk m c 3 t) (iblk m c 4 t) (iblk m c 5 t) (Found.fold (F := F) (iblk m c 0 (pred t)) (iblk m c 1 (pred t)) (iblk m c 2 (pred t)) (iblk m c 3 (pred t)) (iblk m c 4 (pred t)) (iblk m c 5 (pred t)) (k0_pay3 (F := F)))) := by
  have h0 : ¬t.val % 2 = 0 := by omega
  have hp : (pred t).val % 2 = 0 := by show (t.val - 1) % 2 = 0; omega
  rw [outsAt0_B m c t h0 h1, Found.out_B, row_even m c (pred t) hp]

end Cert.KernelIdeal.Accum

end
-- ==== Proof.Payload.lean ====
/-
  The kernel body's arithmetic, read one element at a time over the extended reals.

  The body moves a cloud of points twice and compares the results. The predicted points are kept coordinate-major: a
  3 × 3 matrix times a 3 × 1024 block of cloud points, plus a shift that is a column laid along every lane
  (`pay4_apply`). The true points are kept point-major: a 2048 × 3 block of cloud points times the TRANSPOSE of a 3 × 3
  matrix, plus a shift that is a row laid down every point (`pay5_apply`). For every pair (true point r, predicted
  point q) the three squared coordinate differences are added left to right, and the least of the sums over the 2048
  true points is folded by `min` into a running value (`pay1_apply`), which starts at +∞ (`pay3_apply`) and is in the end
  clipped at zero and square-rooted (`pay2_apply`).

  Each statement reads one element of a block from elements of the blocks it is computed from; the layout operations
  between them (a unit axis added or dropped, a row or a column laid out over a matrix, a row or a column cut out of
  one, a transpose) only rename the element read.
-/
import proofs.«170356_j43447889167182_2_alg».proof.Proof.Gen.KernelIdeal.Skeleton
import proofs.«170356_j43447889167182_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Payload

open Cert.KernelIdeal Cert.KernelIdeal.Gen Idealize.ShloMosaic Idealize.ShloMosaic.ValueIdx Cert.Lib.Least

variable [Cert.KernelIdeal.Facts]

/-! ## Layout: a column laid along every lane -/

/-- An `[a, 1]` column broadcast to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The running value's first contents, and its last use -/

/-- The running value starts at +∞ in every lane: the word 0x7F800000 laid out over the row. -/
theorem pay3_apply (q : Fin 1024) : k0_pay3 (F := Ideal) (ix2 0 q) = (⊤ : EReal) := by
  unfold k0_pay3
  rw [shapeCast_self]
  exact inf_word

/-- The result row: the running value clipped at zero, then its square root; stored with a unit axis in front. -/
theorem pay2_apply (v51 : Vec Ideal S1x1024 .f32) (q : Fin 1024) :
    k0_pay2 (F := Ideal) v51 (ix3 0 0 q) = Ideal.sqrt (max (v51 (ix2 0 q)) 0) := by
  unfold k0_pay2
  refine (shapeCast_ab_1ab_apply _ shapeCasts_S1x1024_S1x1x1024 (0 : Fin 1) (0 : Fin 1) q).trans ?_
  show Ideal.sqrt (max (v51 (ix2 0 q)) (Ideal.ofBits .f32 0x00000000#32)) = _
  rw [Ideal.ofBits_zero_f32]

/-! ## The two matrix products -/

/-- On the product's row axis the left factor is read at the result's row, -/
theorem matmulP_lhs_0 (i : S3x1024.Idx) (q : dot_S3x3_S3x1024_S3x1024_1_0_0_1_n_n.contr.Idx) :
    (dot_S3x3_S3x1024_S3x1024_1_0_0_1_n_n.lhsIdx i q 0).val = (i 0).val := by
  unfold DotDims.lhsIdx
  rw [dif_neg (show ¬(0 : Fin S3x3.rank) ∈ dot_S3x3_S3x1024_S3x1024_1_0_0_1_n_n.lhsBatch by decide),
    dif_pos (show (0 : Fin S3x3.rank) ∈ dot_S3x3_S3x1024_S3x1024_1_0_0_1_n_n.lhsNonContracting by decide)]
  rfl
/-- on its contracted axis at the contraction's coordinate; -/
theorem matmulP_lhs_1 (i : S3x1024.Idx) (q : dot_S3x3_S3x1024_S3x1024_1_0_0_1_n_n.contr.Idx) :
    (dot_S3x3_S3x1024_S3x1024_1_0_0_1_n_n.lhsIdx i q 1).val = (q ⟨0, by decide⟩).val :=
  dot_S3x3_S3x1024_S3x1024_1_0_0_1_n_n.lhsIdx_val_of_single rfl i q
/-- the right factor on its contracted axis at the contraction's coordinate, -/
theorem matmulP_rhs_0 (i : S3x1024.Idx) (q : dot_S3x3_S3x1024_S3x1024_1_0_0_1_n_n.contr.Idx) :
    (dot_S3x3_S3x1024_S3x1024_1_0_0_1_n_n.rhsIdx i q 0).val = (q ⟨0, by decide⟩).val :=
  dot_S3x3_S3x1024_S3x1024_1_0_0_1_n_n.rhsIdx_val_of_single rfl i q
/-- on its column axis at the result's column. -/
theorem matmulP_rhs_1 (i : S3x1024.Idx) (q : dot_S3x3_S3x1024_S3x1024_1_0_0_1_n_n.contr.Idx) :
    (dot_S3x3_S3x1024_S3x1024_1_0_0_1_n_n.rhsIdx i q 1).val = (i 1).val := by
  unfold DotDims.rhsIdx
  rw [dif_neg (show ¬(1 : Fin S3x1024.rank) ∈ dot_S3x3_S3x1024_S3x1024_1_0_0_1_n_n.rhsBatch by decide),
    dif_pos (show (1 : Fin S3x1024.rank) ∈ dot_S3x3_S3x1024_S3x1024_1_0_0_1_n_n.rhsNonContracting by decide)]
  rfl

/-- The 3 × 3 by 3 × 1024 product into the zero block, at `(j, q)`: row `j` of the matrix against column `q` of the points. -/
theorem matmulP_apply (A : FVec Ideal S3x3 .f32) (B : FVec Ideal S3x1024 .f32) (j : Fin 3) (q : Fin 1024) :
    matmul dot_S3x3_S3x1024_S3x1024_1_0_0_1_n_n (some .fp32) A B (constant S3x1024 .f32 0x00000000#32) (ix2 j q)
      = ∑ k : Fin 3, A (ix2 j k) * B (ix2 k q) := by
  show FloatOps.matmul dot_S3x3_S3x1024_S3x1024_1_0_0_1_n_n (some .fp32) A B (constant S3x1024 .f32 0x00000000#32) (ix2 j q) = _
  rw [Ideal.matmul_constant_zero_apply, ← Equiv.sum_comp (contrEquiv1 dot_S3x3_S3x1024_S3x1024_1_0_0_1_n_n 3 rfl rfl).symm]
  refine Finset.sum_congr rfl fun k _ => ?_
  have hk := contrEquiv1_symm_val dot_S3x3_S3x1024_S3x1024_1_0_0_1_n_n 3 rfl rfl k
  have el : dot_S3x3_S3x1024_S3x1024_1_0_0_1_n_n.lhsIdx (ix2 j q) ((contrEquiv1 dot_S3x3_S3x1024_S3x1024_1_0_0_1_n_n 3 rfl rfl).symm k) = ix2 j k :=
    funext fun a => Fin.ext (by
      match a with
      | ⟨0, _⟩ => exact matmulP_lhs_0 _ _
      | ⟨1, _⟩ => exact (matmulP_lhs_1 _ _).trans hk)
  have er : dot_S3x3_S3x1024_S3x1024_1_0_0_1_n_n.rhsIdx (ix2 j q) ((contrEquiv1 dot_S3x3_S3x1024_S3x1024_1_0_0_1_n_n 3 rfl rfl).symm k) = ix2 k q :=
    funext fun a => Fin.ext (by
      match a with
      | ⟨0, _⟩ => exact (matmulP_rhs_0 _ _).trans hk
      | ⟨1, _⟩ => exact matmulP_rhs_1 _ _)
  rw [el, er]

/-- On the product's row axis the left factor is read at the result's row, -/
theorem matmulG_lhs_0 (i : S2048x3.Idx) (q : dot_S2048x3_S3x3_S2048x3_1_0_0_1_n_n.contr.Idx) :
    (dot_S2048x3_S3x3_S2048x3_1_0_0_1_n_n.lhsIdx i q 0).val = (i 0).val := by
  unfold DotDims.lhsIdx
  rw [dif_neg (show ¬(0 : Fin S2048x3.rank) ∈ dot_S2048x3_S3x3_S2048x3_1_0_0_1_n_n.lhsBatch by decide),
    dif_pos (show (0 : Fin S2048x3.rank) ∈ dot_S2048x3_S3x3_S2048x3_1_0_0_1_n_n.lhsNonContracting by decide)]
  rfl
/-- on its contracted axis at the contraction's coordinate; -/
theorem matmulG_lhs_1 (i : S2048x3.Idx) (q : dot_S2048x3_S3x3_S2048x3_1_0_0_1_n_n.contr.Idx) :
    (dot_S2048x3_S3x3_S2048x3_1_0_0_1_n_n.lhsIdx i q 1).val = (q ⟨0, by decide⟩).val :=
  dot_S2048x3_S3x3_S2048x3_1_0_0_1_n_n.lhsIdx_val_of_single rfl i q
/-- the right factor on its contracted axis at the contraction's coordinate, -/
theorem matmulG_rhs_0 (i : S2048x3.Idx) (q : dot_S2048x3_S3x3_S2048x3_1_0_0_1_n_n.contr.Idx) :
    (dot_S2048x3_S3x3_S2048x3_1_0_0_1_n_n.rhsIdx i q 0).val = (q ⟨0, by decide⟩).val :=
  dot_S2048x3_S3x3_S2048x3_1_0_0_1_n_n.rhsIdx_val_of_single rfl i q
/-- on its column axis at the result's column. -/
theorem matmulG_rhs_1 (i : S2048x3.Idx) (q : dot_S2048x3_S3x3_S2048x3_1_0_0_1_n_n.contr.Idx) :
    (dot_S2048x3_S3x3_S2048x3_1_0_0_1_n_n.rhsIdx i q 1).val = (i 1).val := by
  unfold DotDims.rhsIdx
  rw [dif_neg (show ¬(1 : Fin S3x3.rank) ∈ dot_S2048x3_S3x3_S2048x3_1_0_0_1_n_n.rhsBatch by decide),
    dif_pos (show (1 : Fin S3x3.rank) ∈ dot_S2048x3_S3x3_S2048x3_1_0_0_1_n_n.rhsNonContracting by decide)]
  rfl

/-- The 2048 × 3 by 3 × 3 product into the zero block, at `(r, j)`: row `r` of the points against column `j` of the matrix. -/
theorem matmulG_apply (A : FVec Ideal S2048x3 .f32) (B : FVec Ideal S3x3 .f32) (r : Fin 2048) (j : Fin 3) :
    matmul dot_S2048x3_S3x3_S2048x3_1_0_0_1_n_n (some .fp32) A B (constant S2048x3 .f32 0x00000000#32) (ix2 r j)
      = ∑ k : Fin 3, A (ix2 r k) * B (ix2 k j) := by
  show FloatOps.matmul dot_S2048x3_S3x3_S2048x3_1_0_0_1_n_n (some .fp32) A B (constant S2048x3 .f32 0x00000000#32) (ix2 r j) = _
  rw [Ideal.matmul_constant_zero_apply, ← Equiv.sum_comp (contrEquiv1 dot_S2048x3_S3x3_S2048x3_1_0_0_1_n_n 3 rfl rfl).symm]
  refine Finset.sum_congr rfl fun k _ => ?_
  have hk := contrEquiv1_symm_val dot_S2048x3_S3x3_S2048x3_1_0_0_1_n_n 3 rfl rfl k
  have el : dot_S2048x3_S3x3_S2048x3_1_0_0_1_n_n.lhsIdx (ix2 r j) ((contrEquiv1 dot_S2048x3_S3x3_S2048x3_1_0_0_1_n_n 3 rfl rfl).symm k) = ix2 r k :=
    funext fun a => Fin.ext (by
      match a with
      | ⟨0, _⟩ => exact matmulG_lhs_0 _ _
      | ⟨1, _⟩ => exact (matmulG_lhs_1 _ _).trans hk)
  have er : dot_S2048x3_S3x3_S2048x3_1_0_0_1_n_n.rhsIdx (ix2 r j) ((contrEquiv1 dot_S2048x3_S3x3_S2048x3_1_0_0_1_n_n 3 rfl rfl).symm k) = ix2 k j :=
    funext fun a => Fin.ext (by
      match a with
      | ⟨0, _⟩ => exact (matmulG_rhs_0 _ _).trans hk
      | ⟨1, _⟩ => exact matmulG_rhs_1 _ _)
  rw [el, er]

/-! ## The moved points -/

/-- The predicted points, coordinate-major: coordinate `j` of predicted point `q` is row `j` of the matrix against the
    cloud point's column, plus entry `j` of the shift column. -/
theorem pay4_apply (v3 : Vec Ideal S1x3x3 .f32) (v5 : Vec Ideal S3x1024 .f32) (v8 : Vec Ideal S1x3x1 .f32) (j : Fin 3)
    (q : Fin 1024) :
    k0_pay4 (F := Ideal) v3 v5 v8 (ix2 j q) = (∑ k : Fin 3, v3 (ix3 0 j k) * v5 (ix2 k q)) + v8 (ix3 0 j 0) := by
  unfold k0_pay4
  show matmul (F := Ideal) dot_S3x3_S3x1024_S3x1024_1_0_0_1_n_n (some .fp32) (shapeCast S3x3 v3 shapeCasts_S1x3x3_S3x3)
        (shapeCast S3x1024 v5 shapeCasts_S3x1024_S3x1024) (constant S3x1024 .f32 0x00000000#32) (ix2 j q)
      + broadcastTo S3x1024 (shapeCast S3x1 v8 shapeCasts_S1x3x1_S3x1) broadcasts_S3x1_S3x1024 (ix2 j q) = _
  rw [matmulP_apply, shapeCast_self]
  refine congrArg₂ (· + ·) (Finset.sum_congr rfl fun k _ => ?_) ?_
  · exact congrArg (· * v5 (ix2 k q)) (shapeCast_1ab_ab_apply v3 shapeCasts_S1x3x3_S3x3 j k)
  · exact (broadcastTo_a1_ab_apply _ broadcasts_S3x1_S3x1024 j q).trans
      (shapeCast_1ab_ab_apply v8 shapeCasts_S1x3x1_S3x1 j (0 : Fin 1))

/-- The true points, point-major: coordinate `j` of true point `r` is the cloud point's row against row `j` of the
    matrix (the product is taken with the transposed matrix), plus entry `j` of the shift row. -/
theorem pay5_apply (v12 : Vec Ideal S2048x3 .f32) (v13 : Vec Ideal S1x3x3 .f32) (v17 : Vec Ideal S1x1x3 .f32)
    (r : Fin 2048) (j : Fin 3) :
    k0_pay5 (F := Ideal) v12 v13 v17 (ix2 r j) = (∑ k : Fin 3, v12 (ix2 r k) * v13 (ix3 0 j k)) + v17 (ix3 0 0 j) := by
  unfold k0_pay5
  show matmul (F := Ideal) dot_S2048x3_S3x3_S2048x3_1_0_0_1_n_n (some .fp32) v12
        (transpose S3x3 [1, 0] (shapeCast S3x3 v13 shapeCasts_S1x3x3_S3x3) transposes_S3x3_p1_0_S3x3)
        (constant S2048x3 .f32 0x00000000#32) (ix2 r j)
      + broadcastTo S2048x3 (shapeCast S1x3 v17 shapeCasts_S1x1x3_S1x3) broadcasts_S1x3_S2048x3 (ix2 r j) = _
  rw [matmulG_apply]
  refine congrArg₂ (· + ·) (Finset.sum_congr rfl fun k _ => ?_) ?_
  · exact congrArg (v12 (ix2 r k) * ·) ((transpose_ix2_apply _ transposes_S3x3_p1_0_S3x3 k j).trans
      (shapeCast_1ab_ab_apply v13 shapeCasts_S1x3x3_S3x3 j k))
  · exact (broadcastTo_1b_ab_apply _ broadcasts_S1x3_S2048x3 r j).trans
      (shapeCast_1ab_ab_apply v17 shapeCasts_S1x1x3_S1x3 (0 : Fin 1) j)

/-! ## The squared distances and their least value -/

/-- The reduced axis put back: over lane `q`, the source index with coordinate `r` on the rows is `(r, q)`. -/
theorem lift_rows (r : Fin 2048) (q : Fin 1024) : reduces_S2048x1024_S1024.lift (ix1 q) r = ix2 r q := by
  funext c
  match c with
  | ⟨0, _⟩ => rfl
  | ⟨1, _⟩ => rfl

/-- The third coordinate of the true points: column 2 of the point-major block, kept as a column. -/
theorem pay7_apply (v12 : Vec Ideal S2048x3 .f32) (v13 : Vec Ideal S1x3x3 .f32) (v17 : Vec Ideal S1x1x3 .f32)
    (r : Fin 2048) :
    k0_pay7 (F := Ideal) v12 v13 v17 (ix2 r 0) = k0_pay5 (F := Ideal) v12 v13 v17 (ix2 r 2) := by
  unfold k0_pay7
  exact slice2_axis1_apply 2 _ slices_S2048x3_o0_2_S2048x1 r (0 : Fin 1) (2 : Fin 3) rfl

/-- The third coordinate of the predicted points: row 2 of the coordinate-major block, kept as a row. -/
theorem pay8_apply (v3 : Vec Ideal S1x3x3 .f32) (v5 : Vec Ideal S3x1024 .f32) (v8 : Vec Ideal S1x3x1 .f32)
    (q : Fin 1024) :
    k0_pay8 (F := Ideal) v3 v5 v8 (ix2 0 q) = k0_pay4 (F := Ideal) v3 v5 v8 (ix2 2 q) := by
  unfold k0_pay8
  exact slice2_axis0_apply 2 _ slices_S3x1024_o2_0_S1x1024 (0 : Fin 1) q (2 : Fin 3) rfl

/-- The first two squared coordinate differences of true point `r` and predicted point `q`, added. -/
theorem pay6_apply (v3 : Vec Ideal S1x3x3 .f32) (v5 : Vec Ideal S3x1024 .f32) (v8 : Vec Ideal S1x3x1 .f32)
    (v12 : Vec Ideal S2048x3 .f32) (v13 : Vec Ideal S1x3x3 .f32) (v17 : Vec Ideal S1x1x3 .f32) (r : Fin 2048)
    (q : Fin 1024) :
    k0_pay6 (F := Ideal) v3 v5 v8 v12 v13 v17 (ix2 r q)
      = (k0_pay5 (F := Ideal) v12 v13 v17 (ix2 r 0) - k0_pay4 (F := Ideal) v3 v5 v8 (ix2 0 q))
          * (k0_pay5 (F := Ideal) v12 v13 v17 (ix2 r 0) - k0_pay4 (F := Ideal) v3 v5 v8 (ix2 0 q))
        + (k0_pay5 (F := Ideal) v12 v13 v17 (ix2 r 1) - k0_pay4 (F := Ideal) v3 v5 v8 (ix2 1 q))
          * (k0_pay5 (F := Ideal) v12 v13 v17 (ix2 r 1) - k0_pay4 (F := Ideal) v3 v5 v8 (ix2 1 q)) := by
  unfold k0_pay6
  generalize k0_pay5 (F := Ideal) v12 v13 v17 = G
  generalize k0_pay4 (F := Ideal) v3 v5 v8 = P
  have g0 : broadcastTo S2048x1024 (extractStridedSlice S2048x1 ![0, 0] G slices_S2048x3_o0_0_S2048x1)
      broadcasts_S2048x1_S2048x1024 (ix2 r q) = G (ix2 r 0) :=
    (broadcastTo_a1_ab_apply _ broadcasts_S2048x1_S2048x1024 r q).trans
      (slice2_axis1_apply 0 G slices_S2048x3_o0_0_S2048x1 r (0 : Fin 1) (0 : Fin 3) rfl)
  have g1 : broadcastTo S2048x1024 (extractStridedSlice S2048x1 ![0, 1] G slices_S2048x3_o0_1_S2048x1)
      broadcasts_S2048x1_S2048x1024 (ix2 r q) = G (ix2 r 1) :=
    (broadcastTo_a1_ab_apply _ broadcasts_S2048x1_S2048x1024 r q).trans
      (slice2_axis1_apply 1 G slices_S2048x3_o0_1_S2048x1 r (0 : Fin 1) (1 : Fin 3) rfl)
  have p0 : broadcastTo S2048x1024 (extractStridedSlice S1x1024 ![0, 0] P slices_S3x1024_o0_0_S1x1024)
      broadcasts_S1x1024_S2048x1024 (ix2 r q) = P (ix2 0 q) :=
    (broadcastTo_1b_ab_apply _ broadcasts_S1x1024_S2048x1024 r q).trans
      (slice2_axis0_apply 0 P slices_S3x1024_o0_0_S1x1024 (0 : Fin 1) q (0 : Fin 3) rfl)
  have p1 : broadcastTo S2048x1024 (extractStridedSlice S1x1024 ![1, 0] P slices_S3x1024_o1_0_S1x1024)
      broadcasts_S1x1024_S2048x1024 (ix2 r q) = P (ix2 1 q) :=
    (broadcastTo_1b_ab_apply _ broadcasts_S1x1024_S2048x1024 r q).trans
      (slice2_axis0_apply 1 P slices_S3x1024_o1_0_S1x1024 (0 : Fin 1) q (1 : Fin 3) rfl)
  show (broadcastTo S2048x1024 (extractStridedSlice S2048x1 ![0, 0] G slices_S2048x3_o0_0_S2048x1)
          broadcasts_S2048x1_S2048x1024 (ix2 r q)
        - broadcastTo S2048x1024 (extractStridedSlice S1x1024 ![0, 0] P slices_S3x1024_o0_0_S1x1024)
          broadcasts_S1x1024_S2048x1024 (ix2 r q))
      * (broadcastTo S2048x1024 (extractStridedSlice S2048x1 ![0, 0] G slices_S2048x3_o0_0_S2048x1)
          broadcasts_S2048x1_S2048x1024 (ix2 r q)
        - broadcastTo S2048x1024 (extractStridedSlice S1x1024 ![0, 0] P slices_S3x1024_o0_0_S1x1024)
          broadcasts_S1x1024_S2048x1024 (ix2 r q))
      + (broadcastTo S2048x1024 (extractStridedSlice S2048x1 ![0, 1] G slices_S2048x3_o0_1_S2048x1)
          broadcasts_S2048x1_S2048x1024 (ix2 r q)
        - broadcastTo S2048x1024 (extractStridedSlice S1x1024 ![1, 0] P slices_S3x1024_o1_0_S1x1024)
          broadcasts_S1x1024_S2048x1024 (ix2 r q))
      * (broadcastTo S2048x1024 (extractStridedSlice S2048x1 ![0, 1] G slices_S2048x3_o0_1_S2048x1)
          broadcasts_S2048x1_S2048x1024 (ix2 r q)
        - broadcastTo S2048x1024 (extractStridedSlice S1x1024 ![1, 0] P slices_S3x1024_o1_0_S1x1024)
          broadcasts_S1x1024_S2048x1024 (ix2 r q)) = _
  rw [g0, g1, p0, p1]

/-- The running value's update over variables: what was loaded, against the least over the true points `r` of the sum
    so far plus the squared difference of the column's entry at `r` and the row's entry at `q`. -/
theorem pay1_read (v33 : FVec Ideal S2048x1024 .f32) (v34 : FVec Ideal S2048x1 .f32) (v35 : FVec Ideal S1x1024 .f32)
    (v43 : Vec Ideal S1x1024 .f32) (q : Fin 1024) :
    k0_pay1 (F := Ideal) v33 v34 v35 v43 (ix2 0 q)
      = min (v43 (ix2 0 q)) (least fun r : Fin 2048 =>
          v33 (ix2 r q) + (v34 (ix2 r 0) - v35 (ix2 0 q)) * (v34 (ix2 r 0) - v35 (ix2 0 q))) := by
  unfold k0_pay1
  dsimp only
  rw [shapeCast_self]
  refine congrArg (min (v43 (ix2 0 q))) ?_
  refine (shapeCast_a_1a_apply _ shapeCasts_S1024_S1x1024 (0 : Fin 1) q).trans ?_
  refine (multiReduction_minimumf_least _ reduces_S2048x1024_S1024 (.inl rfl) rfl (ix1 q)).trans ?_
  refine least_congr fun r => ?_
  rw [lift_rows r q]
  have c0 : broadcastTo S2048x1024 v34 broadcasts_S2048x1_S2048x1024 (ix2 r q) = v34 (ix2 r 0) :=
    broadcastTo_a1_ab_apply v34 broadcasts_S2048x1_S2048x1024 r q
  have r0 : broadcastTo S2048x1024 v35 broadcasts_S1x1024_S2048x1024 (ix2 r q) = v35 (ix2 0 q) :=
    broadcastTo_1b_ab_apply v35 broadcasts_S1x1024_S2048x1024 r q
  show v33 (ix2 r q) + (broadcastTo S2048x1024 v34 broadcasts_S2048x1_S2048x1024 (ix2 r q)
        - broadcastTo S2048x1024 v35 broadcasts_S1x1024_S2048x1024 (ix2 r q))
      * (broadcastTo S2048x1024 v34 broadcasts_S2048x1_S2048x1024 (ix2 r q)
        - broadcastTo S2048x1024 v35 broadcasts_S1x1024_S2048x1024 (ix2 r q)) = _
  rw [c0, r0]

/-- The running value after a tile: the least of what it was and of the tile's least squared distance from predicted
    point `q` — the three squared coordinate differences added left to right — over the tile's 2048 true points. -/
theorem pay1_apply (v3 : Vec Ideal S1x3x3 .f32) (v5 : Vec Ideal S3x1024 .f32) (v8 : Vec Ideal S1x3x1 .f32)
    (v12 : Vec Ideal S2048x3 .f32) (v13 : Vec Ideal S1x3x3 .f32) (v17 : Vec Ideal S1x1x3 .f32)
    (v43 : Vec Ideal S1x1024 .f32) (q : Fin 1024) :
    k0_pay1 (F := Ideal) (k0_pay6 v3 v5 v8 v12 v13 v17) (k0_pay7 v12 v13 v17) (k0_pay8 v3 v5 v8) v43 (ix2 0 q)
      = min (v43 (ix2 0 q)) (least fun r : Fin 2048 =>
          Cert.Spec.sqDist (fun j => k0_pay5 (F := Ideal) v12 v13 v17 (ix2 r j))
            (fun j => k0_pay4 (F := Ideal) v3 v5 v8 (ix2 j q))) := by
  refine (pay1_read _ _ _ v43 q).trans ?_
  refine congrArg (min (v43 (ix2 0 q))) (least_congr fun r => ?_)
  rw [pay6_apply, pay7_apply, pay8_apply]
  rfl

end Cert.Payload

end
-- ==== Proof.TileValue.lean ====
/-
  One fold of a tile into the running row, in the terms of the specification.

  The kernel body receives six blocks: a transposed tile of 1024 cloud points, a tile of 2048 cloud points, and the
  matrices and shifts of the predicted and the true motion of one batch. Once each block is known to be the stated
  piece of its argument array, the point functions the body forms are the specification's moved points (the true
  point's products are written with the cloud on the left, so each is commuted), the tile's least squared distance is
  `Spec.tileMin`, and the row after the two tiles, clipped at zero under the square root, is `Spec.kerDist`.
-/
import proofs.«170356_j43447889167182_2_alg».proof.Proof.Found
import proofs.«170356_j43447889167182_2_alg».proof.Proof.Payload
import proofs.«170356_j43447889167182_2_alg».proof.Proof.Spec
import Idealize.ShloMosaic.Lib.ValueIdx

noncomputable section

namespace Cert.KernelIdeal.TileValue

open Cert.KernelIdeal Cert.KernelIdeal.Gen Idealize.ShloMosaic Idealize.ShloMosaic.ValueIdx Cert.Lib.Least
  Cert.Payload

variable [Cert.KernelIdeal.Facts]

/-- A point of tile `i` of the 1024-point tiling lies in the cloud. -/
theorem quarter_lt (i : Fin 4) (q : Fin 1024) : i.val * 1024 + q.val < 4096 := by
  have := i.isLt; have := q.isLt; omega

/-- A point of tile `n` of the 2048-point tiling lies in the cloud. -/
theorem half_lt (n : Fin 2) (r : Fin 2048) : n.val * 2048 + r.val < 4096 := by
  have := n.isLt; have := r.isLt; omega

/-- The predicted point the body forms for column `q` of tile `i` is the specification's moved point. -/
theorem pred_point
    (Rp : (⟨3, ![16, 3, 3]⟩ : Shape).Idx → EReal) (tp : (⟨2, ![16, 3]⟩ : Shape).Idx → EReal)
    (mp : (⟨2, ![4096, 3]⟩ : Shape).Idx → EReal) (b : Fin 16) (i : Fin 4)
    (x0 : Vec Ideal S3x1024 .f32) (x2 : Vec Ideal S1x3x3 .f32) (x3 : Vec Ideal S1x3x1 .f32)
    (h0 : ∀ (k : Fin 3) (q : Fin 1024), x0 (ix2 k q) = mp (ix2 ⟨i.val * 1024 + q.val, quarter_lt i q⟩ k))
    (h2 : ∀ (j k : Fin 3), x2 (ix3 0 j k) = Rp (ix3 b j k))
    (h3 : ∀ j : Fin 3, x3 (ix3 0 j 0) = tp (ix2 b j)) (q : Fin 1024) :
    (fun j : Fin 3 => k0_pay4 (F := Ideal) x2 x0 x3 (ix2 j q))
      = Cert.Spec.moved Rp tp mp b ⟨i.val * 1024 + q.val, quarter_lt i q⟩ := by
  funext j
  rw [pay4_apply, h3]
  unfold Cert.Spec.moved
  refine congrArg (· + tp (ix2 b j)) (Finset.sum_congr rfl fun k _ => ?_)
  rw [h2, h0]

/-- The true point the body forms for row `r` of tile `n` is the specification's moved point: the body multiplies the
    cloud's coordinate by the matrix entry, the specification the entry by the coordinate. -/
theorem true_point
    (Rg : (⟨3, ![16, 3, 3]⟩ : Shape).Idx → EReal) (tg : (⟨2, ![16, 3]⟩ : Shape).Idx → EReal)
    (mp : (⟨2, ![4096, 3]⟩ : Shape).Idx → EReal) (b : Fin 16) (n : Fin 2)
    (x1 : Vec Ideal S2048x3 .f32) (x4 : Vec Ideal S1x3x3 .f32) (x5 : Vec Ideal S1x1x3 .f32)
    (h1 : ∀ (r : Fin 2048) (k : Fin 3), x1 (ix2 r k) = mp (ix2 ⟨n.val * 2048 + r.val, half_lt n r⟩ k))
    (h4 : ∀ (j k : Fin 3), x4 (ix3 0 j k) = Rg (ix3 b j k))
    (h5 : ∀ j : Fin 3, x5 (ix3 0 0 j) = tg (ix2 b j)) (r : Fin 2048) :
    (fun j : Fin 3 => k0_pay5 (F := Ideal) x1 x4 x5 (ix2 r j))
      = Cert.Spec.moved Rg tg mp b ⟨n.val * 2048 + r.val, half_lt n r⟩ := by
  funext j
  rw [pay5_apply, h5]
  unfold Cert.Spec.moved
  refine congrArg (· + tg (ix2 b j)) (Finset.sum_congr rfl fun k _ => ?_)
  rw [h1, h4, mul_comm]

/-- Folding tile `n` into the row `acc`: entry `q` becomes the least of what it was and the tile's least squared
    distance from predicted point `q` of tile `i`. -/
theorem fold_apply
    (Rp : (⟨3, ![16, 3, 3]⟩ : Shape).Idx → EReal) (tp : (⟨2, ![16, 3]⟩ : Shape).Idx → EReal)
    (Rg : (⟨3, ![16, 3, 3]⟩ : Shape).Idx → EReal) (tg : (⟨2, ![16, 3]⟩ : Shape).Idx → EReal)
    (mp : (⟨2, ![4096, 3]⟩ : Shape).Idx → EReal)
    (b : Fin 16) (i : Fin 4) (n : Fin 2)
    (x0 : Vec Ideal S3x1024 .f32) (x1 : Vec Ideal S2048x3 .f32) (x2 : Vec Ideal S1x3x3 .f32)
    (x3 : Vec Ideal S1x3x1 .f32) (x4 : Vec Ideal S1x3x3 .f32) (x5 : Vec Ideal S1x1x3 .f32)
    (h0 : ∀ (k : Fin 3) (q : Fin 1024), x0 (ix2 k q) = mp (ix2 ⟨i.val * 1024 + q.val, by have := i.isLt; have := q.isLt; omega⟩ k))
    (h1 : ∀ (r : Fin 2048) (k : Fin 3), x1 (ix2 r k) = mp (ix2 ⟨n.val * 2048 + r.val, by have := n.isLt; have := r.isLt; omega⟩ k))
    (h2 : ∀ (j k : Fin 3), x2 (ix3 0 j k) = Rp (ix3 b j k))
    (h3 : ∀ j : Fin 3, x3 (ix3 0 j 0) = tp (ix2 b j))
    (h4 : ∀ (j k : Fin 3), x4 (ix3 0 j k) = Rg (ix3 b j k))
    (h5 : ∀ j : Fin 3, x5 (ix3 0 0 j) = tg (ix2 b j))
    (acc : Vec Ideal S1x1024 .f32) (q : Fin 1024) :
    Found.fold (F := Ideal) x0 x1 x2 x3 x4 x5 acc (ix2 0 q)
      = min (acc (ix2 0 q))
          (Cert.Spec.tileMin Rp tp Rg tg mp b ⟨i.val * 1024 + q.val, by have := i.isLt; have := q.isLt; omega⟩ n) := by
  unfold Found.fold
  refine (pay1_apply x2 x0 x3 x1 x4 x5 acc q).trans ?_
  unfold Cert.Spec.tileMin
  refine congrArg (min (acc (ix2 0 q))) (least_congr fun r => ?_)
  exact congrArg₂ Cert.Spec.sqDist (true_point Rg tg mp b n x1 x4 x5 h1 h4 h5 r)
    (pred_point Rp tp mp b i x0 x2 x3 h0 h2 h3 q)

/-- Folding the first tile into the row of +∞. -/
theorem first_apply
    (Rp : (⟨3, ![16, 3, 3]⟩ : Shape).Idx → EReal) (tp : (⟨2, ![16, 3]⟩ : Shape).Idx → EReal)
    (Rg : (⟨3, ![16, 3, 3]⟩ : Shape).Idx → EReal) (tg : (⟨2, ![16, 3]⟩ : Shape).Idx → EReal)
    (mp : (⟨2, ![4096, 3]⟩ : Shape).Idx → EReal)
    (b : Fin 16) (i : Fin 4)
    (x0 : Vec Ideal S3x1024 .f32) (x1 : Vec Ideal S2048x3 .f32) (x2 : Vec Ideal S1x3x3 .f32)
    (x3 : Vec Ideal S1x3x1 .f32) (x4 : Vec Ideal S1x3x3 .f32) (x5 : Vec Ideal S1x1x3 .f32)
    (h0 : ∀ (k : Fin 3) (q : Fin 1024), x0 (ix2 k q) = mp (ix2 ⟨i.val * 1024 + q.val, by have := i.isLt; have := q.isLt; omega⟩ k))
    (h1 : ∀ (r : Fin 2048) (k : Fin 3), x1 (ix2 r k) = mp (ix2 ⟨(0 : Fin 2).val * 2048 + r.val, by have := r.isLt; omega⟩ k))
    (h2 : ∀ (j k : Fin 3), x2 (ix3 0 j k) = Rp (ix3 b j k))
    (h3 : ∀ j : Fin 3, x3 (ix3 0 j 0) = tp (ix2 b j))
    (h4 : ∀ (j k : Fin 3), x4 (ix3 0 j k) = Rg (ix3 b j k))
    (h5 : ∀ j : Fin 3, x5 (ix3 0 0 j) = tg (ix2 b j))
    (q : Fin 1024) :
    Found.fold (F := Ideal) x0 x1 x2 x3 x4 x5 (k0_pay3 (F := Ideal)) (ix2 0 q)
      = min ⊤
          (Cert.Spec.tileMin Rp tp Rg tg mp b ⟨i.val * 1024 + q.val, by have := i.isLt; have := q.isLt; omega⟩ 0) := by
  refine (fold_apply Rp tp Rg tg mp b i 0 x0 x1 x2 x3 x4 x5 h0 h1 h2 h3 h4 h5 (k0_pay3 (F := Ideal)) q).trans ?_
  rw [pay3_apply]

/-- After both tiles the output entry is the specification's tiled distance: the running least value over the two
    tiles from +∞, clipped at zero, under the square root. -/
theorem last_apply
    (Rp : (⟨3, ![16, 3, 3]⟩ : Shape).Idx → EReal) (tp : (⟨2, ![16, 3]⟩ : Shape).Idx → EReal)
    (Rg : (⟨3, ![16, 3, 3]⟩ : Shape).Idx → EReal) (tg : (⟨2, ![16, 3]⟩ : Shape).Idx → EReal)
    (mp : (⟨2, ![4096, 3]⟩ : Shape).Idx → EReal)
    (b : Fin 16) (i : Fin 4)
    (x0 : Vec Ideal S3x1024 .f32) (x1 : Vec Ideal S2048x3 .f32) (x2 : Vec Ideal S1x3x3 .f32)
    (x3 : Vec Ideal S1x3x1 .f32) (x4 : Vec Ideal S1x3x3 .f32) (x5 : Vec Ideal S1x1x3 .f32)
    (h0 : ∀ (k : Fin 3) (q : Fin 1024), x0 (ix2 k q) = mp (ix2 ⟨i.val * 1024 + q.val, by have := i.isLt; have := q.isLt; omega⟩ k))
    (h1 : ∀ (r : Fin 2048) (k : Fin 3), x1 (ix2 r k) = mp (ix2 ⟨(0 : Fin 2).val * 2048 + r.val, by have := r.isLt; omega⟩ k))
    (h2 : ∀ (j k : Fin 3), x2 (ix3 0 j k) = Rp (ix3 b j k))
    (h3 : ∀ j : Fin 3, x3 (ix3 0 j 0) = tp (ix2 b j))
    (h4 : ∀ (j k : Fin 3), x4 (ix3 0 j k) = Rg (ix3 b j k))
    (h5 : ∀ j : Fin 3, x5 (ix3 0 0 j) = tg (ix2 b j))
    (y0 : Vec Ideal S3x1024 .f32) (y1 : Vec Ideal S2048x3 .f32) (y2 : Vec Ideal S1x3x3 .f32)
    (y3 : Vec Ideal S1x3x1 .f32) (y4 : Vec Ideal S1x3x3 .f32) (y5 : Vec Ideal S1x1x3 .f32)
    (g0 : ∀ (k : Fin 3) (q : Fin 1024), y0 (ix2 k q) = mp (ix2 ⟨i.val * 1024 + q.val, by have := i.isLt; have := q.isLt; omega⟩ k))
    (g1 : ∀ (r : Fin 2048) (k : Fin 3), y1 (ix2 r k) = mp (ix2 ⟨(1 : Fin 2).val * 2048 + r.val, by have := r.isLt; omega⟩ k))
    (g2 : ∀ (j k : Fin 3), y2 (ix3 0 j k) = Rp (ix3 b j k))
    (g3 : ∀ j : Fin 3, y3 (ix3 0 j 0) = tp (ix2 b j))
    (g4 : ∀ (j k : Fin 3), y4 (ix3 0 j k) = Rg (ix3 b j k))
    (g5 : ∀ j : Fin 3, y5 (ix3 0 0 j) = tg (ix2 b j))
    (q : Fin 1024) :
    k0_pay2 (F := Ideal) (Found.fold y0 y1 y2 y3 y4 y5 (Found.fold x0 x1 x2 x3 x4 x5 (k0_pay3 (F := Ideal)))) (ix3 0 0 q)
      = Cert.Spec.kerDist Rp tp Rg tg mp b ⟨i.val * 1024 + q.val, by have := i.isLt; have := q.isLt; omega⟩ := by
  rw [pay2_apply,
    fold_apply Rp tp Rg tg mp b i 1 y0 y1 y2 y3 y4 y5 g0 g1 g2 g3 g4 g5,
    first_apply Rp tp Rg tg mp b i x0 x1 x2 x3 x4 x5 h0 h1 h2 h3 h4 h5]
  unfold Cert.Spec.kerDist
  rfl

end Cert.KernelIdeal.TileValue

end
-- ==== Proof.Cover.lean ====
/-
  The output window's blocks cover its array.

  The kernel's one output window has the array of extents [16, 1, 4096] and blocks of extents [1, 1, 1024]; grid point
  `t` of the 16 · 4 · 2 = 128 points holds block `(t / 8, 0, t / 2 % 4)` and writes it back exactly when `t` is odd.
  An index `i` of the array therefore lies in the block of the odd point `(i 0) · 8 + ((i 2) / 1024) · 2 + 1`: every
  index of the array is written back by some point.
-/
import proofs.«170356_j43447889167182_2_alg».proof.Proof.Gen.KernelIdeal.Frame
import Idealize.ShloMosaic.Lib.Pipeline.Value

noncomputable section

namespace Cert.KernelIdeal.Cover

open Cert.KernelIdeal Cert.KernelIdeal.Gen Idealize.ShloMosaic Idealize.ShloMosaic.TcCoe Idealize.SL.Sem

/-- The block index of the output window at point `t`: `(t / 8, 0, t / 2 % 4)`, decided over the grid. -/
theorem idx6 : ∀ t : Fin cfg0.N, win0_6.index t (0 : Fin 3) = t.val / 8 ∧ win0_6.index t (1 : Fin 3) = 0
    ∧ win0_6.index t (2 : Fin 3) = t.val / 2 % 4 :=
  (by decide +kernel : ∀ t : Fin grid0.N, _)

/-- An index of the array is in point `t`'s block iff each coordinate is in the block's range on its axis. -/
theorem mem_blk6 (t : Fin cfg0.N) (i : S16x1x4096.Idx) :
    i ∈ ((cfg0.win 6).blk t).view.set ↔ ∀ a : Fin 3, win0_6.index t a * S1x1x1024.size a ≤ (i a).val ∧ (i a).val < win0_6.index t a * S1x1x1024.size a + S1x1x1024.size a := by
  show i ∈ ((View.whole main_v3).slice (win0_6.rect t)).set ↔ _
  rw [View.set_slice_whole, Rect.mem_set_unit]
  exact Iff.rfl

/-- Every index of the array is in the block of a point that writes its block back: the odd point
    `(i 0) · 8 + ((i 2) / 1024) · 2 + 1`. -/
theorem cover6 (i : S16x1x4096.Idx) :
    ∃ t : Fin cfg0.N, (cfg0.win 6).flush t = true ∧ i ∈ ((cfg0.win 6).blk t).view.set := by
  have hN : cfg0.N = 128 := N_0
  have hi0 : (i 0).val < 16 := (i 0).isLt
  have hi1 : (i 1).val < 1 := (i 1).isLt
  have hi2 : (i 2).val < 4096 := (i 2).isLt
  have ht : (i 0).val * 8 + (i 2).val / 1024 * 2 + 1 < cfg0.N := by rw [hN]; omega
  refine ⟨⟨(i 0).val * 8 + (i 2).val / 1024 * 2 + 1, ht⟩, (flush0_6 _).mpr ?_, ?_⟩
  · show ((i 0).val * 8 + (i 2).val / 1024 * 2 + 1) % 2 = 1
    omega
  · obtain ⟨e0, e1, e2⟩ := idx6 ⟨(i 0).val * 8 + (i 2).val / 1024 * 2 + 1, ht⟩
    have v : (⟨(i 0).val * 8 + (i 2).val / 1024 * 2 + 1, ht⟩ : Fin cfg0.N).val
        = (i 0).val * 8 + (i 2).val / 1024 * 2 + 1 := rfl
    rw [v] at e0 e2
    rw [mem_blk6]
    intro a
    match a with
    | ⟨0, _⟩ =>
      show win0_6.index _ (0 : Fin 3) * 1 ≤ (i 0).val ∧ (i 0).val < win0_6.index _ (0 : Fin 3) * 1 + 1
      rw [e0]; omega
    | ⟨1, _⟩ =>
      show win0_6.index _ (1 : Fin 3) * 1 ≤ (i 1).val ∧ (i 1).val < win0_6.index _ (1 : Fin 3) * 1 + 1
      rw [e1]; omega
    | ⟨2, _⟩ =>
      show win0_6.index _ (2 : Fin 3) * 1024 ≤ (i 2).val ∧ (i 2).val < win0_6.index _ (2 : Fin 3) * 1024 + 1024
      rw [e2]; omega

end Cert.KernelIdeal.Cover

end
-- ==== Proof.Final.lean ====
/-
  The output array after the launch.

  Only the points whose last grid coordinate is 1 write a block back: point `t` writes the row of batch `t / 8` and
  predicted points `(t/2 % 4)·1024 …`, and by then its block holds, at column `q`, the clipped root of the least squared
  distance from predicted point `(t/2 % 4)·1024 + q` to all 4096 true points, the first 2048 seen at the point before
  and the last 2048 at the point itself. These 64 rows of 1024 tile the [16, 1, 4096] array, so the array ends as the
  tiled side of the specification, entry by entry.
-/
import proofs.«170356_j43447889167182_2_alg».proof.Proof.Blocks
import proofs.«170356_j43447889167182_2_alg».proof.Proof.Accum
import proofs.«170356_j43447889167182_2_alg».proof.Proof.TileValue
import proofs.«170356_j43447889167182_2_alg».proof.Proof.Cover

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks Cert.KernelIdeal.Accum

variable (m : (ℓ : Loc nD τ sig) → Buf (Elt Ideal) ℓ)

theorem batch_lt (t : Fin cfg0.N) : t.val / 8 < 16 := by have := lt_of_lt_of_eq t.isLt N128; omega
theorem quarter_lt (t : Fin cfg0.N) : t.val / 2 % 4 < 4 := by omega
theorem col_lt (t : Fin cfg0.N) (q : Fin 1024) : t.val / 2 % 4 * 1024 + q.val < 4096 := by have := q.isLt; omega

/-- The output block after an odd point `t`, at column `q`: the nearest distance of predicted point
    `(t/2 % 4)·1024 + q` of batch `t / 8`. The point before (`t − 1`, even) has the same batch and the same tile of
    predicted points and reads true points `0 … 2047`; point `t` reads `2048 … 4095`. -/
theorem out_apply (c : Dev nD) (t : Fin cfg0.N) (h1 : t.val % 2 = 1) (q : Fin 1024) :
    (outsAt0 m c t.val t.isLt).1 (ix3 0 0 q)
      = Cert.Spec.kerDist (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨t.val / 8, batch_lt t⟩ ⟨t.val / 2 % 4 * 1024 + q.val, col_lt t q⟩ := by
  rw [Accum.out_odd m c t h1]
  have hN : t.val < 128 := lt_of_lt_of_eq t.isLt N128
  refine Cert.KernelIdeal.TileValue.last_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨t.val / 8, batch_lt t⟩ ⟨t.val / 2 % 4, quarter_lt t⟩
    (iblk m c 0 (pred t)) (iblk m c 1 (pred t)) (iblk m c 2 (pred t)) (iblk m c 3 (pred t)) (iblk m c 4 (pred t)) (iblk m c 5 (pred t))
    (fun k q' => (blk0 m c (pred t) k q').trans (congrArg (fun p => m ((c.tc : Thread nD τ).loc main_arg4) (ix2 p k)) (Fin.ext (by show (t.val - 1) / 2 % 4 * 1024 + q'.val = t.val / 2 % 4 * 1024 + q'.val; omega))))
    (fun r k => (blk1 m c (pred t) r k).trans (congrArg (fun p => m ((c.tc : Thread nD τ).loc main_arg4) (ix2 p k)) (Fin.ext (by show (t.val - 1) % 2 * 2048 + r.val = (0 : Fin 2).val * 2048 + r.val; show (t.val - 1) % 2 * 2048 + r.val = 0 * 2048 + r.val; omega))))
    (fun j k => (blk2 m c (pred t) j k).trans (congrArg (fun p => m ((c.tc : Thread nD τ).loc main_arg0) (ix3 p j k)) (Fin.ext (by show (t.val - 1) / 8 = t.val / 8; omega))))
    (fun j => (blk3 m c (pred t) j).trans (congrArg (fun p => m ((c.tc : Thread nD τ).loc main_arg1) (ix2 p j)) (Fin.ext (by show (t.val - 1) / 8 = t.val / 8; omega))))
    (fun j k => (blk4 m c (pred t) j k).trans (congrArg (fun p => m ((c.tc : Thread nD τ).loc main_arg2) (ix3 p j k)) (Fin.ext (by show (t.val - 1) / 8 = t.val / 8; omega))))
    (fun j => (blk5 m c (pred t) j).trans (congrArg (fun p => m ((c.tc : Thread nD τ).loc main_arg3) (ix2 p j)) (Fin.ext (by show (t.val - 1) / 8 = t.val / 8; omega))))
    (iblk m c 0 t) (iblk m c 1 t) (iblk m c 2 t) (iblk m c 3 t) (iblk m c 4 t) (iblk m c 5 t)
    (fun k q' => blk0 m c t k q')
    (fun r k => (blk1 m c t r k).trans (congrArg (fun p => m ((c.tc : Thread nD τ).loc main_arg4) (ix2 p k)) (Fin.ext (by show t.val % 2 * 2048 + r.val = (1 : Fin 2).val * 2048 + r.val; show t.val % 2 * 2048 + r.val = 1 * 2048 + r.val; omega))))
    (fun j k => blk2 m c t j k)
    (fun j => blk3 m c t j)
    (fun j k => blk4 m c t j k)
    (fun j => blk5 m c t j)
    q

/-- The array the launch leaves: entry `(b, 0, p)` is the nearest distance of predicted point `p` of batch `b`. -/
def arr (c : Dev nD) : S16x1x4096.Idx → EReal :=
  fun i => Cert.Spec.kerDist (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 2)

/-- What an odd point writes back is its block of that array: row `t / 8`, columns `(t/2 % 4)·1024 …`. -/
theorem flushed_eq (c : Dev nD) (t : Fin cfg0.N) (hf : (cfg0.win 6).flush t = true) :
    (dats m 0 c).flushed 6 t = ((cfg0.win 6).blk t).view.read (Elt Ideal) (arr m c) := by
  have h1 : t.val % 2 = 1 := (flush0_6 t).mp hf
  obtain ⟨e0, e1, e2⟩ := Cert.KernelIdeal.Cover.idx6 t
  show (cfg0.win 6).cut (grid0.coords t) ((dats m 0 c).after 6 t) = _
  rw [after0_6]
  refine funext fun (y : S1x1x1024.Idx) => ?_
  obtain ⟨u, v, q, rfl⟩ : ∃ (u : Fin 1) (v : Fin 1) (q : Fin 1024), y = ix3 u v q := ⟨y 0, y 1, y 2, eq_ix3 y⟩
  obtain rfl : u = 0 := Subsingleton.elim _ _
  obtain rfl : v = 0 := Subsingleton.elim _ _
  rw [View.read_apply]
  show (outsAt0 m c t.val t.isLt).1 (ix3 0 0 q) = arr m c (((cfg0.win 6).blk t).view.emb (ix3 0 0 q))
  rw [out_apply m c t h1 q]
  unfold arr
  exact congrArg₂ (Cert.Spec.kerDist (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
    (Fin.ext (by show t.val / 8 = win0_6.index t (0 : Fin 3) * 1 + 1 * 0; rw [e0]; omega))
    (Fin.ext (by show t.val / 2 % 4 * 1024 + q.val = win0_6.index t (2 : Fin 3) * 1024 + 1 * q.val; rw [e2]; omega))

/-- The 64 written rows tile the array, so it ends as `arr`. -/
theorem final6 (c : Dev nD) : (dats m 0 c).arrAt 6 cfg0.N = arr m c :=
  (dats m 0 c).arrAt_eq_of_cover 6 (arr m c) (flushed_eq m c) (fun i => Cert.KernelIdeal.Cover.cover6 i)

end Cert.KernelIdeal.Final

end
-- ==== Proof.Tail.lean ====
/-
  The host operations after the kernel's launch, read at their result.

  After the launch the output array of extents [16, 1, 4096] is cast to extents [16, 4096], summed from zero over both
  axes and divided by 65536: the result is the average (`Cert.Spec.mean`) of the cast output array. A cast that drops
  a unit middle axis keeps the row-major position: at `(i, j)` it reads the operand at `(i, 0, j)`.
-/
import proofs.«170356_j43447889167182_2_alg».proof.Proof.Gen.KernelIdeal.Frame
import proofs.«170356_j43447889167182_2_alg».proof.Proof.Spec
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.Tail

open Cert.KernelIdeal Cert.KernelIdeal.Gen Idealize.ShloMosaic Idealize.ShloMosaic.TcCoe Idealize.SL.Sem
open Idealize.ShloMosaic.StableHlo

/-- An `[a, 1, b]` array cast to `[a, b]` reads, at `(i, j)`, the operand at `(i, 0, j)`: the row-major position is
    kept. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ValueIdx.ix2 i j) = x (ValueIdx.ix3 i (0 : Fin 1) j) :=
  shapeCast_apply x h _ _ (by
    rw [Shape.rowMajor_val_two, Shape.rowMajor_val_three]
    show (i.val * 1 + 0) * b + j.val = i.val * b + j.val
    rw [Nat.mul_one, Nat.add_zero])

variable (m : (ℓ : Loc nD τ sig) → Buf (Elt Ideal) ℓ)

/-- The result buffer after the host operations that follow the launch holds the average of the output array cast to
    extents [16, 4096]. -/
theorem result_eq (c : Dev nD) :
    Pipeline.afterTail₀ cfgs (dats m) 0 (V0 m) [hostOps1] c main_v6
      = Cert.Spec.mean reducesTo_S16x4096_S_d0_1 h_S_
          (shapeCast S16x4096 ((dats m 0 c).arrAt 6 cfg0.N) shapeCasts_S16x1x4096_S16x4096) := by
  unfold Pipeline.afterTail₀
  show StableHlo.after hostOps1 _ (Proc.devRef .tc main_v6) = _
  after_results
  have e : Pipeline.withArrays (cfgs 0).spec c (V0 m c) (fun w => (dats m 0 c).arrAt w (cfgs 0).N)
      (Proc.devRef .tc main_v3) = (dats m 0 c).arrAt 6 cfg0.N :=
    Pipeline.withArrays_arr spec0 launch0.win.arr_inj c (V0 m c) _ 6
  rw [e]
  rfl

end Cert.KernelIdeal.Tail

end
-- ==== Proof.Nearest.lean ====
/-
  The launch and the host lines around it, read as one value: the program's result is the average of the nearest
  distances of the tiled side of the specification, taken of the five argument arrays.
-/
import proofs.«170356_j43447889167182_2_alg».proof.Proof.Gen.KernelIdeal.Frame
import proofs.«170356_j43447889167182_2_alg».proof.Proof.Spec
import proofs.«170356_j43447889167182_2_alg».proof.Proof.Final
import proofs.«170356_j43447889167182_2_alg».proof.Proof.Tail

noncomputable section

open Idealize.ShloMosaic Idealize.ShloMosaic.TcCoe Idealize.SL.Sem Idealize.ShloMosaic.ValueIdx

namespace Cert.KernelIdeal.Nearest

open Cert.KernelIdeal Cert.KernelIdeal.Gen

variable (m : (ℓ : Loc nD τ sig) → Buf (Elt Ideal) ℓ) (ρ : Dev nD → PrngReg)

/-- The nearest distances of the tiled side, of core `c`'s argument arrays. -/
def nearest (c : Dev nD) : FVec Ideal ⟨2, ![16, 4096]⟩ .f32 :=
  fun i => Cert.Spec.kerDist (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1)

/-- The array the launch leaves, with its unit axis dropped by the host, is those distances. -/
theorem squeezed (c : Dev nD) :
    shapeCast S16x4096 ((dats m 0 c).arrAt 6 cfg0.N) shapeCasts_S16x1x4096_S16x4096 = nearest m c := by
  rw [Cert.KernelIdeal.Final.final6 m c]
  funext i
  rw [eq_ix2 i]
  exact Cert.KernelIdeal.Tail.shapeCast_a1b_ab_apply (Cert.KernelIdeal.Final.arr m c) shapeCasts_S16x1x4096_S16x4096 (i 0) (i 1)

/-- Every weakly fair execution ends with the result at the average of those distances and the arguments unchanged. -/
theorem run : θ_run defs (onTc (τ := τ) (main (F := Ideal))) ⟨m, fun _ => 0, ρ⟩ fun r => ∀ c : Dev nD,
      r.2.mem ((c.tc : Thread nD τ).loc main_v6) = Cert.Spec.mean reducesTo_S16x4096_S_d0_1 h_S_ (nearest m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v6 (Pipeline.mem_restRefs_of main_v6 (by decide) (by decide))).trans
        ((Cert.KernelIdeal.Tail.result_eq m c).trans (congrArg (Cert.Spec.mean reducesTo_S16x4096_S_d0_1 h_S_) (squeezed m c))),
      ((h c).1 2).trans (((dats m 0 c).arrAt_in 2 rfl _).trans ((A_eq m c 2).trans (V_main_arg0 m c))),
      (((h c).2 main_arg1 (Pipeline.mem_restRefs_of main_arg1 (by decide) (by decide))).trans (W_main_arg1 m (dats m) c)),
      ((h c).1 4).trans (((dats m 0 c).arrAt_in 4 rfl _).trans ((A_eq m c 4).trans (V_main_arg2 m c))),
      (((h c).2 main_arg3 (Pipeline.mem_restRefs_of main_arg3 (by decide) (by decide))).trans (W_main_arg3 m (dats m) c)),
      ((h c).1 1).trans (((dats m 0 c).arrAt_in 1 rfl _).trans ((A_eq m c 1).trans (V_main_arg4 m c)))⟩)
    (run_main m ρ)

end Cert.KernelIdeal.Nearest

end
-- ==== Proof.RefRead.lean ====
/-
  The reference program's array of nearest distances, read index by index.

  For batch `b` and predicted point `m` the reference forms, for every true point `n`, the expanded squared distance
  `‖p‖² + ‖g‖² − 2·⟨p, g⟩` of the two moved points (each squared norm and the inner product a sum over the three
  coordinates), clips it at zero, takes the square root, and then takes the least over the 4096 true points. Read at the
  index `(b, m)` this is `Spec.refDist`; the final result is `Spec.mean` of that array.
-/
import proofs.«170356_j43447889167182_2_alg».proof.Proof.Gen.ReferenceIdeal.Read
import proofs.«170356_j43447889167182_2_alg».proof.Proof.Spec
import Idealize.ShloMosaic.Lib.ValueIdx
import Idealize.ShloMosaic.PureOps.Ideal.Laws

noncomputable section

namespace Cert.RefRead

open Cert.ReferenceIdeal Cert.ReferenceIdeal.Gen Cert.ReferenceIdeal.Read Idealize.ShloMosaic Idealize.ShloMosaic.ValueIdx
  Cert.Lib.Least

/-- Coordinate `j` of cloud point `p` moved by batch `b`'s predicted motion: the matrix row against the point, plus the
    shift. -/
theorem moved_pred (R : FVec Ideal S16x3x3 .f32) (t : FVec Ideal S16x3 .f32) (mp : FVec Ideal S4096x3 .f32)
    (b : Fin 16) (p : Fin 4096) (j : Fin 3) :
    val_main_v4 (F := Ideal) R t mp (ix3 b p j) = Cert.Spec.moved R t mp b p j := by
  rw [val_main_v4_apply, val_main_v1_apply, val_main_v0_apply, val_main_v3_apply, val_main_v2_apply]
  have e1 : ∀ k : Fin 3, lidx_main_v0 (idx_main_v1 (ix3 b p j)) k = ix3 b j k := fun k => funext fun a => by
    match a with | ⟨0, _⟩ => rfl | ⟨1, _⟩ => rfl | ⟨2, _⟩ => rfl
  have e2 : ∀ k : Fin 3, ridx_main_v0 (idx_main_v1 (ix3 b p j)) k = ix2 p k := fun k => funext fun a => by
    match a with | ⟨0, _⟩ => rfl | ⟨1, _⟩ => rfl
  have e3 : idx_main_v2 (idx_main_v3 (ix3 b p j)) = ix2 b j := funext fun a => by
    match a with | ⟨0, _⟩ => rfl | ⟨1, _⟩ => rfl
  simp only [e1, e2, e3, Ideal.addf_def]
  rfl

/-- The same coordinate under the true motion (the program computes it by a second copy of the same operations). -/
theorem moved_true (R : FVec Ideal S16x3x3 .f32) (t : FVec Ideal S16x3 .f32) (mp : FVec Ideal S4096x3 .f32)
    (b : Fin 16) (p : Fin 4096) (j : Fin 3) :
    val_main_v9 (F := Ideal) R t mp (ix3 b p j) = Cert.Spec.moved R t mp b p j := by
  rw [val_main_v9_apply, val_main_v6_apply, val_main_v5_apply, val_main_v8_apply, val_main_v7_apply]
  have e1 : ∀ k : Fin 3, lidx_main_v5 (idx_main_v6 (ix3 b p j)) k = ix3 b j k := fun k => funext fun a => by
    match a with | ⟨0, _⟩ => rfl | ⟨1, _⟩ => rfl | ⟨2, _⟩ => rfl
  have e2 : ∀ k : Fin 3, ridx_main_v5 (idx_main_v6 (ix3 b p j)) k = ix2 p k := fun k => funext fun a => by
    match a with | ⟨0, _⟩ => rfl | ⟨1, _⟩ => rfl
  have e3 : idx_main_v7 (idx_main_v8 (ix3 b p j)) = ix2 b j := funext fun a => by
    match a with | ⟨0, _⟩ => rfl | ⟨1, _⟩ => rfl
  simp only [e1, e2, e3, Ideal.addf_def]
  rfl

/-- The squared norm of a predicted point: the sum of its three squared coordinates, started from zero. -/
theorem sqnorm_pred (R : FVec Ideal S16x3x3 .f32) (t : FVec Ideal S16x3 .f32) (mp : FVec Ideal S4096x3 .f32)
    (b : Fin 16) (p : Fin 4096) :
    val_main_v11 (F := Ideal) R t mp (ix2 b p)
      = 0 + ∑ j : Fin 3, Cert.Spec.moved R t mp b p j * Cert.Spec.moved R t mp b p j := by
  rw [val_main_v11_apply, val_main_cst_apply, Ideal.ofBits_def, Ideal.ofBits_zero_f32]
  refine congrArg (0 + ·) (Finset.sum_congr rfl fun k _ => ?_)
  have e : idx_main_v11 (ix2 b p) k = ix3 b p k := funext fun a => by
    match a with | ⟨0, _⟩ => rfl | ⟨1, _⟩ => rfl | ⟨2, _⟩ => rfl
  rw [e, val_main_v10_apply, moved_pred, Ideal.mulf_def]

/-- The squared norm of a true point, likewise. -/
theorem sqnorm_true (R : FVec Ideal S16x3x3 .f32) (t : FVec Ideal S16x3 .f32) (mp : FVec Ideal S4096x3 .f32)
    (b : Fin 16) (p : Fin 4096) :
    val_main_v13 (F := Ideal) R t mp (ix2 b p)
      = 0 + ∑ j : Fin 3, Cert.Spec.moved R t mp b p j * Cert.Spec.moved R t mp b p j := by
  rw [val_main_v13_apply, val_main_cst_0_apply, Ideal.ofBits_def, Ideal.ofBits_zero_f32]
  refine congrArg (0 + ·) (Finset.sum_congr rfl fun k _ => ?_)
  have e : idx_main_v13 (ix2 b p) k = ix3 b p k := funext fun a => by
    match a with | ⟨0, _⟩ => rfl | ⟨1, _⟩ => rfl | ⟨2, _⟩ => rfl
  rw [e, val_main_v12_apply, moved_true, Ideal.mulf_def]

/-- The inner product of predicted point `m` and true point `n` of batch `b`. -/
theorem inner_read (x0 : FVec Ideal S16x3x3 .f32) (x1 : FVec Ideal S16x3 .f32) (x2 : FVec Ideal S16x3x3 .f32)
    (x3 : FVec Ideal S16x3 .f32) (x4 : FVec Ideal S4096x3 .f32) (b : Fin 16) (m n : Fin 4096) :
    val_main_v14 (F := Ideal) x0 x1 x2 x3 x4 (ix3 b m n)
      = ∑ j : Fin 3, Cert.Spec.moved x0 x1 x4 b m j * Cert.Spec.moved x2 x3 x4 b n j := by
  rw [val_main_v14_apply]
  refine Finset.sum_congr rfl fun k _ => ?_
  have el : lidx_main_v14 (ix3 b m n) k = ix3 b m k := funext fun a => by
    match a with | ⟨0, _⟩ => rfl | ⟨1, _⟩ => rfl | ⟨2, _⟩ => rfl
  have er : ridx_main_v14 (ix3 b m n) k = ix3 b n k := funext fun a => by
    match a with | ⟨0, _⟩ => rfl | ⟨1, _⟩ => rfl | ⟨2, _⟩ => rfl
  rw [el, er, moved_pred, moved_true]

/-- The distance of predicted point `m` and true point `n` as the reference forms it: the expanded square, clipped at
    zero, under the square root. -/
theorem pair_read (x0 : FVec Ideal S16x3x3 .f32) (x1 : FVec Ideal S16x3 .f32) (x2 : FVec Ideal S16x3x3 .f32)
    (x3 : FVec Ideal S16x3 .f32) (x4 : FVec Ideal S4096x3 .f32) (b : Fin 16) (m n : Fin 4096) :
    val_main_v25 (F := Ideal) x0 x1 x2 x3 x4 (ix3 b m n)
      = Ideal.sqrt (max
          (((0 + ∑ j : Fin 3, Cert.Spec.moved x0 x1 x4 b m j * Cert.Spec.moved x0 x1 x4 b m j)
              + (0 + ∑ j : Fin 3, Cert.Spec.moved x2 x3 x4 b n j * Cert.Spec.moved x2 x3 x4 b n j))
            - Cert.Spec.twoW * ∑ j : Fin 3, Cert.Spec.moved x0 x1 x4 b m j * Cert.Spec.moved x2 x3 x4 b n j) 0) := by
  have ep : idx_main_v15 (idx_main_v17 (ix3 b m n)) = ix2 b m := funext fun a => by
    match a with | ⟨0, _⟩ => rfl | ⟨1, _⟩ => rfl
  have et : idx_main_v16 (idx_main_v18 (ix3 b m n)) = ix2 b n := funext fun a => by
    match a with | ⟨0, _⟩ => rfl | ⟨1, _⟩ => rfl
  rw [val_main_v25_apply, val_main_v24_apply, val_main_v22_apply, val_main_v19_apply, val_main_v17_apply,
    val_main_v15_apply, val_main_v18_apply, val_main_v16_apply, val_main_v21_apply, val_main_v20_apply,
    val_main_cst_1_apply, val_main_v23_apply, val_main_cst_2_apply, ep, et, sqnorm_pred, sqnorm_true, inner_read]
  simp only [Ideal.addf_def, Ideal.subf_def, Ideal.mulf_def, Ideal.maximumf_def, Ideal.hostUnary_sqrt_def,
    Ideal.ofBits_def, Ideal.ofBits_zero_f32]
  rfl

/-- The reference's array of nearest distances at `(b, m)`: the least, over the true points, of the pair distances. -/
theorem ref_nearest (x0 : FVec Ideal S16x3x3 .f32) (x1 : FVec Ideal S16x3 .f32) (x2 : FVec Ideal S16x3x3 .f32)
    (x3 : FVec Ideal S16x3 .f32) (x4 : FVec Ideal S4096x3 .f32) (b : Fin 16) (m : Fin 4096) :
    val_main_v26 (F := Ideal) x0 x1 x2 x3 x4 (ix2 b m) = Cert.Spec.refDist x0 x1 x2 x3 x4 b m := by
  have h : S16x4096x4096.Reduces [2] S16x4096 := by decide
  unfold val_main_v26 val_main_cst_3
  refine (hostReduce_minimumf_least (val_main_v25 (F := Ideal) x0 x1 x2 x3 x4)
    reducesTo_S16x4096x4096_S16x4096_d2 h h_S_ (ix2 b m)).trans ?_
  unfold Cert.Spec.refDist
  refine least_congr fun n => ?_
  have e : h.lift (ix2 b m) n = ix3 b m n := funext fun a => Fin.ext (by
    match a with | ⟨0, _⟩ => rfl | ⟨1, _⟩ => rfl | ⟨2, _⟩ => rfl)
  rw [e]
  exact pair_read x0 x1 x2 x3 x4 b m n

/-- The same, as an equation of arrays. -/
theorem ref_nearest_fun (x0 : FVec Ideal S16x3x3 .f32) (x1 : FVec Ideal S16x3 .f32) (x2 : FVec Ideal S16x3x3 .f32)
    (x3 : FVec Ideal S16x3 .f32) (x4 : FVec Ideal S4096x3 .f32) :
    val_main_v26 (F := Ideal) x0 x1 x2 x3 x4 = fun i => Cert.Spec.refDist x0 x1 x2 x3 x4 (i 0) (i 1) := by
  funext i
  rw [eq_ix2 i]
  exact ref_nearest x0 x1 x2 x3 x4 (i 0) (i 1)

/-- The reference's result is the average of its array of nearest distances. -/
theorem ref_result (x0 : FVec Ideal S16x3x3 .f32) (x1 : FVec Ideal S16x3 .f32) (x2 : FVec Ideal S16x3x3 .f32)
    (x3 : FVec Ideal S16x3 .f32) (x4 : FVec Ideal S4096x3 .f32) :
    val_main_v28 (F := Ideal) x0 x1 x2 x3 x4
      = Cert.Spec.mean reducesTo_S16x4096_S_d0_1 h_S_ (val_main_v26 (F := Ideal) x0 x1 x2 x3 x4) := by
  unfold Cert.Spec.mean val_main_v28 val_main_v27 val_main_cst_4 val_main_cst_5
  rfl

end Cert.RefRead

end
-- ==== Proof.SpecLaw.lean ====
/-
  The two ways of computing the closest-point distance agree on real inputs.

  For real matrices, shifts and cloud points every moved coordinate is a real number, so the sum of the three squared
  coordinate differences is the expanded form `‖p‖² + ‖g‖² − 2·⟨p, g⟩` (an identity of real numbers, carried to the
  extended reals). The clipped root `x ↦ √(max x 0)` is monotone and fixes +∞, so it commutes with the least value of a
  finite family; and the running least value over the two tiles of 2048 points is the least value over all 4096 points.
-/
import proofs.«170356_j43447889167182_2_alg».proof.Proof.Spec

noncomputable section

namespace Cert.Spec

open Idealize.ShloMosaic Idealize.ShloMosaic.ValueIdx Cert.Lib.Least

/-- an extended real that is a real number -/
def IsReal (x : EReal) : Prop := ∃ r : ℝ, x = (r : EReal)

/-- The f32 word 0x40000000 is the number 2. -/
theorem twoW_eq : twoW = ((2 : ℝ) : EReal) := by
  unfold twoW; simp [Ideal.ofBits, Ideal.ieee, -EReal.coe_mul]; norm_num

/-- The sum of two real numbers is a real number. -/
theorem IsReal.add {x y : EReal} (hx : IsReal x) (hy : IsReal y) : IsReal (x + y) := by
  obtain ⟨a, rfl⟩ := hx; obtain ⟨c, rfl⟩ := hy; exact ⟨a + c, (EReal.coe_add a c).symm⟩

/-- The product of two real numbers is a real number. -/
theorem IsReal.mul {x y : EReal} (hx : IsReal x) (hy : IsReal y) : IsReal (x * y) := by
  obtain ⟨a, rfl⟩ := hx; obtain ⟨c, rfl⟩ := hy; exact ⟨a * c, (EReal.coe_mul a c).symm⟩

/-- Every coordinate of a cloud point moved by a real matrix and a real shift is a real number. -/
theorem isReal_moved (R : (⟨3, ![16, 3, 3]⟩ : Shape).Idx → EReal) (t : (⟨2, ![16, 3]⟩ : Shape).Idx → EReal)
    (mp : (⟨2, ![4096, 3]⟩ : Shape).Idx → EReal) (hR : ∀ i, IsReal (R i)) (ht : ∀ i, IsReal (t i))
    (hmp : ∀ i, IsReal (mp i)) (b : Fin 16) (p : Fin 4096) (j : Fin 3) : IsReal (moved R t mp b p j) := by
  unfold moved
  rw [Fin.sum_univ_three]
  exact ((((hR _).mul (hmp _)).add ((hR _).mul (hmp _))).add ((hR _).mul (hmp _))).add (ht _)

/-- The expansion of the squared distance, for real numbers:
    `(g₀−p₀)² + (g₁−p₁)² + (g₂−p₂)² = (Σ pⱼ² + Σ gⱼ²) − 2·Σ pⱼ·gⱼ`. -/
theorem sqDist_expand_real (g p : Fin 3 → ℝ) :
    ((g 0 - p 0) * (g 0 - p 0) + (g 1 - p 1) * (g 1 - p 1)) + (g 2 - p 2) * (g 2 - p 2)
      = ((p 0 * p 0 + p 1 * p 1 + p 2 * p 2) + (g 0 * g 0 + g 1 * g 1 + g 2 * g 2))
          - 2 * (p 0 * g 0 + p 1 * g 1 + p 2 * g 2) := by
  ring

/-- The expansion of the squared distance of two points with real coordinates, in the extended reals, each sum started
    from zero and the factor 2 given by its f32 word. -/
theorem sqDist_expand (g p : Fin 3 → EReal) (hg : ∀ j, IsReal (g j)) (hp : ∀ j, IsReal (p j)) :
    sqDist g p
      = ((0 + ∑ j : Fin 3, p j * p j) + (0 + ∑ j : Fin 3, g j * g j)) - twoW * ∑ j : Fin 3, p j * g j := by
  choose G hG using hg
  choose P hP using hp
  unfold sqDist
  rw [twoW_eq]
  simp only [Fin.sum_univ_three, zero_add, hG, hP]
  simp only [← EReal.coe_mul, ← EReal.coe_add, ← EReal.coe_sub]
  exact congrArg _ (sqDist_expand_real G P)

/-- The square root of the extended reals is monotone. -/
theorem sqrt_mono : Monotone Ideal.sqrt := by
  intro x y hxy
  induction x using EReal.rec with
  | bot => exact bot_le
  | top => rw [top_le_iff.mp hxy]
  | coe r =>
    induction y using EReal.rec with
    | bot => exact absurd hxy (by simp)
    | top => exact le_top
    | coe s =>
      have h : r ≤ s := EReal.coe_le_coe_iff.mp hxy
      simp only [Ideal.sqrt_coe]
      by_cases h1 : r < 0
      · rw [if_pos h1]; exact bot_le
      · have h2 : ¬ s < 0 := fun h2 => h1 (lt_of_le_of_lt h h2)
        rw [if_neg h1, if_neg h2]
        exact EReal.coe_le_coe_iff.mpr (Real.sqrt_le_sqrt h)

/-- The clipped root `x ↦ √(max x 0)`. -/
def clipRoot (x : EReal) : EReal := Ideal.sqrt (max x 0)

/-- The clipped root is monotone. -/
theorem clipRoot_mono : Monotone clipRoot :=
  fun _ _ h => sqrt_mono (max_le_max h le_rfl)

/-- The clipped root of +∞ is +∞. -/
theorem clipRoot_top : clipRoot ⊤ = ⊤ := by
  unfold clipRoot
  rw [max_eq_left le_top]
  rfl

/-- A monotone function that fixes +∞ commutes with the least value of a finite family. -/
theorem map_least {K : Type} [Fintype K] {f : EReal → EReal} (hf : Monotone f) (htop : f ⊤ = ⊤) (g : K → EReal) :
    f (least g) = least fun k => f (g k) := by
  classical
  unfold least
  induction (Finset.univ : Finset K) using Finset.induction_on with
  | empty => simpa using htop
  | insert a s ha ih => rw [Finset.fold_insert ha, Finset.fold_insert ha, hf.map_min, ih]

/-- The least value of a family of two members is the smaller of the two. -/
theorem least_two (h : Fin 2 → EReal) : least h = min (h 0) (h 1) := by
  refine eq_of_forall_le_iff fun c => ?_
  rw [le_least, Fin.forall_fin_two, le_min_iff]

/-- The running least value over the two tiles, started from +∞, is the least squared distance over all 4096 true
    points. -/
theorem twoTile_least (Rp : (⟨3, ![16, 3, 3]⟩ : Shape).Idx → EReal) (tp : (⟨2, ![16, 3]⟩ : Shape).Idx → EReal)
    (Rg : (⟨3, ![16, 3, 3]⟩ : Shape).Idx → EReal) (tg : (⟨2, ![16, 3]⟩ : Shape).Idx → EReal)
    (mp : (⟨2, ![4096, 3]⟩ : Shape).Idx → EReal) (b : Fin 16) (m : Fin 4096) :
    min (min ⊤ (tileMin Rp tp Rg tg mp b m 0)) (tileMin Rp tp Rg tg mp b m 1)
      = least fun n : Fin 4096 => sqDist (moved Rg tg mp b n) (moved Rp tp mp b m) := by
  rw [top_inf_eq, ← least_two (tileMin Rp tp Rg tg mp b m)]
  exact least_blocks (T := 2) (R := 2048)
    (fun n : Fin (2 * 2048) => sqDist (moved Rg tg mp b n) (moved Rp tp mp b m))

/-- On real inputs the tiled side and the expanded side give the same distance. -/
theorem kerDist_eq_refDist
    (Rp : (⟨3, ![16, 3, 3]⟩ : Shape).Idx → EReal) (tp : (⟨2, ![16, 3]⟩ : Shape).Idx → EReal)
    (Rg : (⟨3, ![16, 3, 3]⟩ : Shape).Idx → EReal) (tg : (⟨2, ![16, 3]⟩ : Shape).Idx → EReal)
    (mp : (⟨2, ![4096, 3]⟩ : Shape).Idx → EReal)
    (hRp : ∀ i, IsReal (Rp i)) (htp : ∀ i, IsReal (tp i)) (hRg : ∀ i, IsReal (Rg i)) (htg : ∀ i, IsReal (tg i))
    (hmp : ∀ i, IsReal (mp i))
    (b : Fin 16) (m : Fin 4096) :
    kerDist Rp tp Rg tg mp b m = refDist Rp tp Rg tg mp b m := by
  unfold kerDist refDist
  rw [twoTile_least]
  refine (map_least clipRoot_mono clipRoot_top _).trans (least_congr fun n => ?_)
  show Ideal.sqrt (max (sqDist (moved Rg tg mp b n) (moved Rp tp mp b m)) 0) = _
  rw [sqDist_expand _ _ (isReal_moved Rg tg mp hRg htg hmp b n) (isReal_moved Rp tp mp hRp htp hmp b m)]

end Cert.Spec

end
-- ==== Proof.Finite.lean ====
/-
  The finiteness precondition, read back: all five argument arrays hold real numbers.

  The precondition compares the absolute value of every entry of every argument array with +∞, reduces each comparison
  array by `and` over all its axes, and joins the five results by `and`. When the outcome is 1, every comparison is 1:
  every entry has `|x| < +∞`, and an extended real whose absolute value is below +∞ is neither −∞ nor +∞.
-/
import proofs.«170356_j43447889167182_2_alg».proof.Defs
import proofs.«170356_j43447889167182_2_alg».proof.Proof.Gen.Pre_finite_inputs
import proofs.«170356_j43447889167182_2_alg».proof.Proof.SpecLaw
import Idealize.ShloMosaic.Lib.ReduceAll

noncomputable section

namespace Cert.Finite

open Idealize.ShloMosaic Idealize.ShloMosaic.ValueIdx Cert.Lib.Least Cert.Spec

/-- An extended real whose absolute value `max x (−x)` is below +∞ is a real number. -/
theorem isReal_of_abs_lt_top (x : EReal) (h : max x (-x) < ⊤) : IsReal x := by
  induction x using EReal.rec with
  | bot => exact absurd h (by simp)
  | coe r => exact ⟨r, rfl⟩
  | top => exact absurd h (by simp)

/-- The comparison `|x| < +∞` (the f32 word 0x7F800000) coming out 1 says that `x` is a real number. -/
theorem isReal_of_cmp (x : EReal)
    (h : Ideal.cmp .olt (max x (-x)) (Ideal.ofBits .f32 0x7F800000#32) = 1#1) : IsReal x := by
  rw [inf_word] at h
  refine isReal_of_abs_lt_top x ?_
  by_contra hn
  have e : Ideal.cmp .olt (max x (-x)) ⊤ = 0#1 := by
    unfold Ideal.cmp
    simp only [decide_eq_false hn]
    rfl
  rw [e] at h
  exact absurd h (by decide)

/-- A rank-0 array has one index. -/
instance : Subsingleton Cert.Pre_finite_inputs.S_.Idx := ⟨fun _ _ => funext fun d => d.elim0⟩

/-- One array's part of the precondition: when the reduction by `and`, over all axes, of the comparisons `|a i| < +∞` is
    1, every entry of `a` is a real number. -/
theorem all_real {s : Shape} {axes : List (Fin s.rank)} (a : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (h : Host.reduce IntOp.andi
        (cmpf .olt (Host.absf (F := Ideal) a)
          (broadcastInDim s ![] bc (constant (F := Ideal) Cert.Pre_finite_inputs.S_ .f32 0x7F800000#32)))
        init hr hu ix0 = 1#1) (i : s.Idx) : IsReal (a i) :=
  isReal_of_cmp (a i) (Host.reduce_andi_all _ init hr hu ix0 h i)

/-- When the precondition holds, all five argument arrays hold real numbers. -/
theorem real_of_pre [hPre : Cert.Pre_finite_inputs.Facts]
    (a0 : FVec Ideal Cert.Pre_finite_inputs.S16x3x3 .f32) (a1 : FVec Ideal Cert.Pre_finite_inputs.S16x3 .f32) (a2 : FVec Ideal Cert.Pre_finite_inputs.S16x3x3 .f32) (a3 : FVec Ideal Cert.Pre_finite_inputs.S16x3 .f32) (a4 : FVec Ideal Cert.Pre_finite_inputs.S4096x3 .f32)
    (h : Cert.Pre_finite_inputs.fn (F := Ideal) a0 a1 a2 a3 a4 = (fun _ => 1#1)) :
    (∀ i, Cert.Spec.IsReal (a0 i)) ∧ (∀ i, Cert.Spec.IsReal (a1 i)) ∧ (∀ i, Cert.Spec.IsReal (a2 i)) ∧ (∀ i, Cert.Spec.IsReal (a3 i)) ∧ (∀ i, Cert.Spec.IsReal (a4 i)) := by
  have h0 := congrFun h ValueIdx.ix0
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨all_real a0 _ _ _ _ h0', all_real a1 _ _ _ _ h1, all_real a2 _ _ _ _ h2, all_real a3 _ _ _ _ h3,
    all_real a4 _ _ _ _ h4⟩

end Cert.Finite

end
-- ==== Proof.Claims.lean ====
/-
  The five claims, each from the statements that carry it.

  Three of them say that a program runs to the end and leaves its five argument arrays as they were; one says that
  the program read over the extended reals is the program's own text; the last says that, from the same five arrays,
  the tiled program and the reference end at the same number.

  That last one joins two readings. The tiled program ends at the average, over 16 batches and 4096 predicted points,
  of the distance to the nearest truly-moved point, computed as: the least, over two tiles of 2048 true points, of the
  sum of three squared coordinate differences, then clipped at zero, then its square root. The reference ends at the
  same average of: the least, over all 4096 true points, of the square root of the clipped expansion
  ‖p‖² + ‖g‖² − 2·⟨p, g⟩. The two agree index by index when the arrays hold real numbers, which the precondition
  says: over the reals the expansion of the square is an identity (it is not when an infinity meets its opposite),
  and the clipped root is monotone and keeps +∞, so it commutes with the least value.
-/
import proofs.«170356_j43447889167182_2_alg».proof.Defs
import proofs.«170356_j43447889167182_2_alg».proof.Proof.Gen.Kernel
import proofs.«170356_j43447889167182_2_alg».proof.Proof.Gen.Kernel.Frame
import proofs.«170356_j43447889167182_2_alg».proof.Proof.Gen.KernelIdeal
import proofs.«170356_j43447889167182_2_alg».proof.Proof.Gen.KernelIdeal.Frame
import proofs.«170356_j43447889167182_2_alg».proof.Proof.Gen.ReferenceIdeal
import proofs.«170356_j43447889167182_2_alg».proof.Proof.Gen.Pre_finite_inputs
import proofs.«170356_j43447889167182_2_alg».proof.Proof.Gen.ReferenceIdeal.Run
import proofs.«170356_j43447889167182_2_alg».proof.Proof.Gen.ReferenceIdeal.Read
import proofs.«170356_j43447889167182_2_alg».proof.Proof.Nearest
import proofs.«170356_j43447889167182_2_alg».proof.Proof.RefRead
import proofs.«170356_j43447889167182_2_alg».proof.Proof.SpecLaw
import proofs.«170356_j43447889167182_2_alg».proof.Proof.Finite

noncomputable section

open Idealize.ShloMosaic Idealize.ShloMosaic.TcCoe Idealize.SL.Sem

namespace Cert.Proof.Claims

/-- The program as printed runs to the end and its five argument arrays end unchanged. -/
theorem frame_k : Cert.frame_Kernel := fun m ρ _ => Cert.Kernel.Gen.frame m ρ

/-- The program read over the extended reals runs to the end and its five argument arrays end unchanged. -/
theorem frame_ki : Cert.frame_KernelIdeal := fun m ρ _ => Cert.KernelIdeal.Gen.frame m ρ

/-- The reference read over the extended reals runs to the end and its five argument arrays end unchanged: its run
    states the result too, which is dropped here. -/
theorem frame_ri : Cert.frame_ReferenceIdeal := fun m ρ _ =>
  (θ_run Cert.ReferenceIdeal.defs _ _).mono (fun _ h c => (h c).2) (Cert.ReferenceIdeal.Value.run (F := Ideal) m ρ)

/-- No operation of the program is replaced when it is read over the extended reals: there is nothing to preserve. -/
theorem preserves : Cert.preserves_Kernel_KernelIdeal := trivial

/-- From the same five arrays of real numbers the two programs end at the same number. The tiled program ends at the
    average of the nearest distances of the tiled side, the reference at the average of those of the expanded side
    (the same sum from zero divided by the same word); the two arrays of distances are equal index by index: over the
    reals ‖g − p‖² = ‖p‖² + ‖g‖² − 2·⟨p, g⟩, and the clipped root, monotone and fixing +∞, goes inside the least
    value over the true points, which two tiles of 2048 exhaust. -/
theorem algebraic : Cert.algebraic_KernelIdeal_ReferenceIdeal := by
  intro m ρ m' ρ' hpre hagree
  refine ⟨fun c => Cert.Spec.mean Cert.KernelIdeal.Gen.reducesTo_S16x4096_S_d0_1 Cert.KernelIdeal.Gen.h_S_
    (Cert.KernelIdeal.Nearest.nearest m c), Cert.KernelIdeal.Nearest.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v28_eq (F := Ideal) _ _ _ _ _).trans ?_
  rw [(hagree c).1, (hagree c).2.1, (hagree c).2.2.1, (hagree c).2.2.2.1, (hagree c).2.2.2.2,
    Cert.RefRead.ref_result, Cert.RefRead.ref_nearest_fun]
  obtain ⟨h0, h1, h2, h3, h4⟩ := Cert.Finite.real_of_pre _ _ _ _ _ (hpre c)
  exact congrArg (Cert.Spec.mean _ _)
    (funext fun i => (Cert.Spec.kerDist_eq_refDist _ _ _ _ _ h0 h1 h2 h3 h4 (i 0) (i 1)).symm)

end Cert.Proof.Claims

end
-- ==== Proof.lean ====
/-
  The certificate of a tiled nearest-point distance against its plain formulation.

  A cloud of 4096 points in space is moved, for each of 16 batches, by a predicted rigid motion and by a true one; for
  every predicted point the distance to the nearest truly-moved point is taken, and the 16 · 4096 distances are averaged.

  The accelerator program walks a 16 · 4 · 2 grid: a tile of 1024 predicted points against a tile of 2048 true points per
  step. It forms the squared distance as the sum of the three squared coordinate differences, keeps the least value per
  predicted point in a row that starts at +∞ and lives across the two steps of a tile pair, and clips at zero and takes
  the square root only once, after the second step. The plain formulation expands the square,
  `‖p‖² + ‖g‖² − 2·⟨p, g⟩`, clips and takes the root for all 4096 · 4096 pairs of a batch, and then takes the least value.

  Over the extended reals, with every input finite, the two agree entry by entry:
  * every moved coordinate is a real number, so the expansion of the square is the identity of real algebra
    (this is the one place where finiteness of the inputs is used: distributing a product over a sum fails at ±∞);
  * clipping at zero followed by the square root is monotone and keeps +∞, so it commutes with a least value taken
    from +∞;
  * the least value over two tiles of 2048, folded one after the other into +∞, is the least value over all 4096.
  The two averages are then the same host operations applied to equal arrays.

  The three frame claims are the generated frame certificates (the reference's is its generated run); the idealization
  rewrote nothing, so `preserves` is `True`; the value claim is `Cert.Proof.Claims.algebraic`.
-/
import proofs.«170356_j43447889167182_2_alg».proof.Defs
import proofs.«170356_j43447889167182_2_alg».proof.Proof.Gen.Kernel
import proofs.«170356_j43447889167182_2_alg».proof.Proof.Gen.KernelIdeal
import proofs.«170356_j43447889167182_2_alg».proof.Proof.Gen.ReferenceIdeal
import proofs.«170356_j43447889167182_2_alg».proof.Proof.Gen.Pre_finite_inputs
import proofs.«170356_j43447889167182_2_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
